-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S4000x512 : Shape := ⟨2, ![4000, 512]⟩
abbrev S4000x1 : Shape := ⟨2, ![4000, 1]⟩
abbrev S4000x16 : Shape := ⟨2, ![4000, 16]⟩
abbrev S3300000x16 : Shape := ⟨2, ![3300000, 16]⟩
abbrev S1x16 : Shape := ⟨2, ![1, 16]⟩
abbrev S100000x64 : Shape := ⟨2, ![100000, 64]⟩
abbrev S4000x64 : Shape := ⟨2, ![4000, 64]⟩
abbrev S3300000x64 : Shape := ⟨2, ![3300000, 64]⟩
abbrev S1x64 : Shape := ⟨2, ![1, 64]⟩

abbrev nBuf : Space → Nat
  | .hbm => 87
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x16, .f32⟩
  | .hbm, ⟨41, _⟩ => ⟨S_, .f32⟩
  | .hbm, ⟨42, _⟩ => ⟨S100000x16, .f32⟩
  | .hbm, ⟨43, _⟩ => ⟨S3300000x1, .i32⟩
  | .hbm, ⟨44, _⟩ => ⟨S100000x16, .f32⟩
  | .hbm, ⟨45, _⟩ => ⟨S100000x16, .f32⟩
  | .hbm, ⟨46, _⟩ => ⟨S100000x16, .f32⟩
  | .hbm, ⟨47, _⟩ => ⟨S1x16, .f32⟩
  | .hbm, ⟨48, _⟩ => ⟨S100000x16, .f32⟩
  | .hbm, ⟨49, _⟩ => ⟨S100000x16, .f32⟩
  | .hbm, ⟨50, _⟩ => ⟨S_, .f32⟩
  | .hbm, ⟨51, _⟩ => ⟨S100000x16, .f32⟩
  | .hbm, ⟨52, _⟩ => ⟨S100000x16, .f32⟩
  | .hbm, ⟨53, _⟩ => ⟨S100000x64, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000, .f32⟩
  | .hbm, ⟨83, _⟩ => ⟨S100000x1, .f32⟩
  | .hbm, ⟨84, _⟩ => ⟨S100000x1, .f32⟩
  | .hbm, ⟨85, _⟩ => ⟨S100000x64, .f32⟩
  | .hbm, ⟨86, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S16x64, .f32⟩
  | .local _ .vmem, ⟨10, _⟩ => ⟨S4000x1, .f32⟩
  | .local _ .vmem, ⟨11, _⟩ => ⟨S4000x1, .f32⟩
  | .local _ .vmem, ⟨12, _⟩ => ⟨S4000x64, .f32⟩
  | .local _ .vmem, ⟨13, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_cst : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call2_cst : Ref sig .tc := ⟨.hbm, 72, rfl⟩
abbrev main_call2_v0 : Ref sig .tc := ⟨.hbm, 73, rfl⟩
abbrev main_call2_cst_0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_cst_1 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_v51 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x64_S16x64_0_0 : ∀ a, (![0, 0] : Fin 2 → Nat) a + S16x64.size a ≤ S16x64.size a
  h_S16x64 : 0 < S16x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  scatter_S100000_S3300000x1_S3300000_n_0_0_1_wf : ScatterDims.WF S100000 S3300000x1 S3300000 [] [0] [0] 1
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x64_S4000x64_1_0_0_1_n_n_wf : DotDims.WF S4000x16 S16x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x16, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000, .f32⟩
  | .hbm, ⟨91, _⟩ => ⟨S3300000, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x64, .f32⟩
  | .hbm, ⟨101, _⟩ => ⟨S3300000x1, .f32⟩
  | .hbm, ⟨102, _⟩ => ⟨S3300000x64, .f32⟩
  | .hbm, ⟨103, _⟩ => ⟨S3300000x64, .f32⟩
  | .hbm, ⟨104, _⟩ => ⟨S_, .f32⟩
  | .hbm, ⟨105, _⟩ => ⟨S100000x64, .f32⟩
  | .hbm, ⟨106, _⟩ => ⟨S3300000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x64, .f32⟩
  | .hbm, ⟨125, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  dot_S100000x512_S512x16_S100000x16_1_0_0_1_n_n_wf : DotDims.WF S100000x512 S512x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The idealized kernel's run with its RESULT named. The program is two kernel regions among stretches of host
  operations; its frame run threads the TensorCore's buffer contents through every segment boundary, from the launch
  memory to the contents at the return (`Gen.W9`). The frame claim keeps of those last contents only the six argument
  arrays; here the same run is stated once more with one further conjunct: the result array ends at the last
  boundary's contents at its own reference. What that value is, as a function of the arguments, is read off the
  boundaries in the other modules.
-/
import proofs.«109751_j7026566496715_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    segment boundary's contents and the six argument arrays as launched. -/
theorem run_result : θ_run defs (onTc (τ := τ) (main (F := F))) ⟨m, fun _ => 0, ρ⟩ (fun r => ∀ c : Dev nD,
      r.2.mem ((c.tc : Thread nD τ).loc main_v51) = W9 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v51 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.GcnRun

end
-- ==== Proof.KernelSpec.lean ====
/-
  The mathematics of the idealized kernel program, as functions of whole arrays (no run, no memory). The program
  is a two-layer graph convolution over 100000 nodes and 3300000 edges (the 3200000 given ones and one self loop per
  node):
    • `srcV`, `dstV`: the edge list's two rows with the self loops appended;
    • `degV`: the number of edges landing on each node, as a scatter-add of ones; `disV`: its inverse square root
      (of the degree raised to at least 1), or 0 where no edge lands; `dcolV`: the same as a column;
    • `scaledProd16` / `scaledProd64`: what a kernel region leaves — every row of a matrix product scaled by that
      row's entry of the column;
    • `layerK16` / `layerK64`: the host operations between the regions — the scaled rows gathered by source node,
      scatter-added by destination node, scaled again by the destination's entry, plus the bias;
    • `relu16`, `logSoftmax`: the two outlined functions.
  Index arrays for the gathers are wrapped (a negative index has 100000 added); the scatter takes them as they are.
-/
import proofs.«109751_j7026566496715_2_alg».proof.Proof.Gen.KernelIdeal
import Idealize.ShloMosaic.PureOps.Ideal
import Idealize.ShloMosaic.Lib.ValueIdx

noncomputable section

namespace Cert.KernelIdeal.GcnSpec

open Cert.KernelIdeal Cert.KernelIdeal.Gen Idealize.ShloMosaic Idealize.ShloMosaic.ValueIdx

variable {F : FTy → Type} [FloatOps F]

/-- The source nodes: row 0 of the edge list, then one self loop per node. -/
def srcV (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The destination nodes: row 1 of the edge list, then one self loop per node. -/
def dstV (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- An index vector as the column of start indices a scatter takes: unchanged. -/
def rawIx (v : IVec S3300000 32) : IVec S3300000x1 32 :=
  broadcastInDim S3300000x1 ![0] bcast_S3300000_S3300000x1_0 v

/-- An index vector as the column of start indices a gather takes: a negative index has 100000 added first. -/
def wrapIx (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Each node's degree: ones scatter-added by destination node onto zeros. -/
def degV (e : IVec S2x3200000 32) : FVec F S100000 .f32 :=
  Host.scatterAdd scatter_S100000_S3300000x1_S3300000_n_0_0_1
    (broadcastInDim S100000 ![] bcast_S_S100000 (constant (F := F) S_ .f32 0x00000000#32))
    (rawIx (dstV e))
    (broadcastInDim S3300000 ![] bcast_S_S3300000 (constant (F := F) S_ .f32 0x3F800000#32))

/-- The normalisation: where the degree is above zero, the inverse square root of the larger of the degree and one;
    elsewhere zero. -/
def disV (e : IVec S2x3200000 32) : FVec F S100000 .f32 :=
  select (cmpf (F := F) .ogt (degV (F := F) e) (broadcastInDim S100000 ![] bcast_S_S100000 (constant (F := F) S_ .f32 0x00000000#32)))
    (Host.rsqrt (maximumf (degV (F := F) e) (broadcastInDim S100000 ![] bcast_S_S100000 (constant (F := F) S_ .f32 0x3F800000#32))))
    (broadcastInDim S100000 ![] bcast_S_S100000 (id (constant (F := F) S_ .f32 0x00000000#32)))

/-- The normalisation as a column. -/
def dcolV (e : IVec S2x3200000 32) : FVec F S100000x1 .f32 :=
  shapeCast S100000x1 (disV (F := F) e) shapeCasts_S100000_S100000x1

/-- Every row of the product `X · W` (512 contracted) scaled by that row's entry of the column `S`. -/
def scaledProd16 (X : S100000x512.Idx → EReal) (W : S512x16.Idx → EReal) (S : S100000x1.Idx → EReal) : S100000x16.Idx → EReal :=
  fun i => (∑ k : Fin 512, X (ix2 (⟨(i 0).val, (i 0).isLt⟩ : Fin 100000) k) * W (ix2 k (⟨(i 1).val, (i 1).isLt⟩ : Fin 16)))
    * S (ix2 (⟨(i 0).val, (i 0).isLt⟩ : Fin 100000) (0 : Fin 1))

/-- Every row of the product `X · W` (16 contracted) scaled by that row's entry of the column `S`. -/
def scaledProd64 (X : S100000x16.Idx → EReal) (W : S16x64.Idx → EReal) (S : S100000x1.Idx → EReal) : S100000x64.Idx → EReal :=
  fun i => (∑ k : Fin 16, X (ix2 (⟨(i 0).val, (i 0).isLt⟩ : Fin 100000) k) * W (ix2 k (⟨(i 1).val, (i 1).isLt⟩ : Fin 64)))
    * S (ix2 (⟨(i 0).val, (i 0).isLt⟩ : Fin 100000) (0 : Fin 1))

/-- A bias vector spread over every row (16 columns). -/
def bias16 (b : FVec F S16 .f32) : FVec F S100000x16 .f32 :=
  broadcastInDim S100000x16 ![0, 1] bcast_S1x16_S100000x16_0_1 (broadcastInDim S1x16 ![1] bcast_S16_S1x16_1 b)

/-- A bias vector spread over every row (64 columns). -/
def bias64 (b : FVec F S64 .f32) : FVec F S100000x64 .f32 :=
  broadcastInDim S100000x64 ![0, 1] bcast_S1x64_S100000x64_0_1 (broadcastInDim S1x64 ![1] bcast_S64_S1x64_1 b)

/-- The first layer's propagation as the kernel program does it: the (already row-scaled) rows `T` gathered by source
    node, scatter-added by destination node onto zeros, each sum scaled by the destination's entry of the column, plus
    the bias. -/
def layerK16 (T : FVec F S100000x16 .f32) (dcol : FVec F S100000x1 .f32) (src dst : IVec S3300000 32) (b : FVec F S16 .f32) :
    FVec F S100000x16 .f32 :=
  addf (mulf (broadcastInDim S100000x16 ![0, 1] bcast_S100000x1_S100000x16_0_1 dcol)
      (Host.scatterAdd scatter_S100000x16_S3300000x1_S3300000x16_1_0_0_1
        (broadcastInDim S100000x16 ![] bcast_S_S100000x16 (constant (F := F) S_ .f32 0x00000000#32))
        (rawIx dst)
        (Host.gather gather_S100000x16_S3300000x1_S3300000x16_1_0_n_n_0_1_116 T (wrapIx src))))
    (bias16 b)

/-- The second layer's propagation as the kernel program does it (64 columns). -/
def layerK64 (T : FVec F S100000x64 .f32) (dcol : FVec F S100000x1 .f32) (src dst : IVec S3300000 32) (b : FVec F S64 .f32) :
    FVec F S100000x64 .f32 :=
  addf (mulf (broadcastInDim S100000x64 ![0, 1] bcast_S100000x1_S100000x64_0_1 dcol)
      (Host.scatterAdd scatter_S100000x64_S3300000x1_S3300000x64_1_0_0_1
        (broadcastInDim S100000x64 ![] bcast_S_S100000x64 (constant (F := F) S_ .f32 0x00000000#32))
        (rawIx dst)
        (Host.gather gather_S100000x64_S3300000x1_S3300000x64_1_0_n_n_0_1_164 T (wrapIx src))))
    (bias64 b)

/-- The larger of each entry and zero. -/
def relu16 (y : FVec F S100000x16 .f32) : FVec F S100000x16 .f32 :=
  maximumf y (broadcastInDim S100000x16 ![] bcast_S_S100000x16 (constant (F := F) S_ .f32 0x00000000#32))

/-- Each row minus its largest entry, `y'`, then minus the logarithm of the row sum of `exp y'`. -/
def logSoftmax (y : FVec F S100000x64 .f32) : FVec F S100000x64 .f32 :=
  subf
    (subf y (broadcastInDim S100000x64 ![0, 1] bcast_S100000x1_S100000x64_0_1 (broadcastInDim S100000x1 ![0] bcast_S100000_S100000x1_0
      (maximumf (broadcastInDim S100000 ![] bcast_S_S100000 (constant (F := F) S_ .f32 0xFF800000#32))
        (Host.reduce FloatOps.maximumf y (constant (F := F) S_ .f32 0xFF800000#32) reducesTo_S100000x64_S100000_d1 h_S_)))))
    (broadcastInDim S100000x64 ![0, 1] bcast_S100000x1_S100000x64_0_1 (Host.log (broadcastInDim S100000x1 ![0] bcast_S100000_S100000x1_0
      (Host.reduceAdd
        (Host.exp (subf y (broadcastInDim S100000x64 ![0, 1] bcast_S100000x1_S100000x64_0_1 (broadcastInDim S100000x1 ![0] bcast_S100000_S100000x1_0
          (maximumf (broadcastInDim S100000 ![] bcast_S_S100000 (constant (F := F) S_ .f32 0xFF800000#32))
            (Host.reduce FloatOps.maximumf y (constant (F := F) S_ .f32 0xFF800000#32) reducesTo_S100000x64_S100000_d1 h_S_))))))
        (constant (F := F) S_ .f32 0x00000000#32) reducesTo_S100000x64_S100000_d1 h_S_))))

/-- THE KERNEL PROGRAM'S RESULT as a function of its six arguments, at the extended reals. -/
def kernelValue (x : S100000x512.Idx → EReal) (e : IVec S2x3200000 32) (w1 : S512x16.Idx → EReal) (b1 : S16.Idx → EReal)
    (w2 : S16x64.Idx → EReal) (b2 : S64.Idx → EReal) : S100000x64.Idx → EReal :=
  logSoftmax (F := Ideal)
    (layerK64 (F := Ideal)
      (scaledProd64
        (relu16 (F := Ideal) (layerK16 (F := Ideal) (scaledProd16 x w1 (dcolV (F := Ideal) e)) (dcolV (F := Ideal) e) (srcV e) (dstV e) b1))
        w2 (dcolV (F := Ideal) e))
      (dcolV (F := Ideal) e) (srcV e) (dstV e) b2)

end Cert.KernelIdeal.GcnSpec

end
-- ==== Proof.ChainNorm.lean ====
/-
  The idealized kernel program's buffer contents when its first kernel region is entered, as functions of the six
  arguments: the two edge lists with self loops, the normalisation vector built in steps — the degree (a scatter-add
  of ones), the comparison with zero and the inverse square root of the degree raised to at least one, the selection
  between that and zero — and its column; and the argument arrays, which no host operation writes.
-/
import proofs.«109751_j7026566496715_2_alg».proof.Proof.Gen.KernelIdeal.Frame
import proofs.«109751_j7026566496715_2_alg».proof.Proof.KernelSpec

set_option maxRecDepth 16384

noncomputable section

namespace Cert.KernelIdeal.GcnChain

open Cert.KernelIdeal Cert.KernelIdeal.Gen Cert.KernelIdeal.GcnSpec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The six arguments as core `c` is launched with them. -/
abbrev aX : S100000x512.Idx → EReal := m ((c : Thread nD τ).loc main_arg0)
abbrev aE : IVec S2x3200000 32 := m ((c : Thread nD τ).loc main_arg1)
abbrev aW1 : S512x16.Idx → EReal := m ((c : Thread nD τ).loc main_arg2)
abbrev aB1 : S16.Idx → EReal := m ((c : Thread nD τ).loc main_arg3)
abbrev aW2 : S16x64.Idx → EReal := m ((c : Thread nD τ).loc main_arg4)
abbrev aB2 : S64.Idx → EReal := m ((c : Thread nD τ).loc main_arg5)

/-! ## The edge lists and the arguments at the first region's entry -/

theorem b3_src : W3 m ρ c (Proc.devRef .tc main_v3) = srcV (aE m c) := by
  dsimp only [W3, W2, W1, W0, hostOps0, hostOps0_1, hostOps0_2]
  after_results
  try rfl
theorem b3_dst : W3 m ρ c (Proc.devRef .tc main_v6) = dstV (aE m c) := by
  dsimp only [W3, W2, W1, W0, hostOps0, hostOps0_1, hostOps0_2]
  after_results
  try rfl
theorem b3_x : W3 m ρ c (Proc.devRef .tc main_arg0) = aX m c := by
  dsimp only [W3, W2, W1, W0, hostOps0, hostOps0_1, hostOps0_2]
  after_results
  try rfl
theorem b3_w1 : W3 m ρ c (Proc.devRef .tc main_arg2) = aW1 m c := by
  dsimp only [W3, W2, W1, W0, hostOps0, hostOps0_1, hostOps0_2]
  after_results
  try rfl
theorem b3_b1 : W3 m ρ c (Proc.devRef .tc main_arg3) = aB1 m c := by
  dsimp only [W3, W2, W1, W0, hostOps0, hostOps0_1, hostOps0_2]
  after_results
  try rfl
theorem b3_w2 : W3 m ρ c (Proc.devRef .tc main_arg4) = aW2 m c := by
  dsimp only [W3, W2, W1, W0, hostOps0, hostOps0_1, hostOps0_2]
  after_results
  try rfl
theorem b3_b2 : W3 m ρ c (Proc.devRef .tc main_arg5) = aB2 m c := by
  dsimp only [W3, W2, W1, W0, hostOps0, hostOps0_1, hostOps0_2]
  after_results
  try rfl

/-! ## The normalisation, in steps -/

/-- The contents after the first 13 host operations (the edge lists and the degree are complete), after the first
    stretch, and after the selection. -/
def Q : Valuation τ sig (Elt Ideal) := after (List.take 13 (hostOps0 (F := Ideal))) (W0 m ρ c)
def P1 : Valuation τ sig (Elt Ideal) := W1 m ρ c
def P2 : Valuation τ sig (Elt Ideal) := W2 m ρ c

theorem p1_split : P1 m ρ c = after (List.drop 13 (hostOps0 (F := Ideal))) (Q m ρ c) := by
  unfold P1 Q
  show after (hostOps0 (F := Ideal)) (W0 m ρ c) = _
  rw [← StableHlo.after_append, List.take_append_drop]

set_option maxHeartbeats 4000000 in
theorem q_deg : Q m ρ c (Proc.devRef .tc main_v10) = degV (F := Ideal) (aE m c) := by
  unfold Q
  simp only [hostOps0, List.take_succ_cons, List.take_zero]
  after_results
  try rfl

theorem p1_gt : P1 m ρ c (Proc.devRef .tc main_v12)
    = cmpf (F := Ideal) .ogt (degV (F := Ideal) (aE m c)) (broadcastInDim S100000 ![] bcast_S_S100000 (constant (F := Ideal) S_ .f32 0x00000000#32)) := by
  rw [p1_split]
  simp only [hostOps0, List.drop_succ_cons, List.drop_zero]
  after_results
  rw [q_deg]
theorem p1_rs : P1 m ρ c (Proc.devRef .tc main_v15)
    = Host.rsqrt (maximumf (degV (F := Ideal) (aE m c)) (broadcastInDim S100000 ![] bcast_S_S100000 (constant (F := Ideal) S_ .f32 0x3F800000#32))) := by
  rw [p1_split]
  simp only [hostOps0, List.drop_succ_cons, List.drop_zero]
  after_results
  rw [q_deg]
theorem p1_zero : P1 m ρ c (Proc.devRef .tc main_cst_3) = constant (F := Ideal) S_ .f32 0x00000000#32 := by
  rw [p1_split]
  simp only [hostOps0, List.drop_succ_cons, List.drop_zero]
  after_results
  try rfl

theorem p2_dis : P2 m ρ c (Proc.devRef .tc main_v16) = disV (F := Ideal) (aE m c) := by
  show after (hostOps0_1 (F := Ideal)) (P1 m ρ c) (Proc.devRef .tc main_v16) = _
  dsimp only [hostOps0_1]
  after_results
  unfold disV
  rw [← p1_gt m ρ c, ← p1_rs m ρ c, ← p1_zero m ρ c]
  generalize P1 m ρ c (Proc.devRef .tc main_v12) = G
  generalize P1 m ρ c (Proc.devRef .tc main_v15) = R
  generalize P1 m ρ c (Proc.devRef .tc main_cst_3) = Z
  rfl

theorem b3_dcol : W3 m ρ c (Proc.devRef .tc main_v17) = dcolV (F := Ideal) (aE m c) := by
  show after (hostOps0_2 (F := Ideal)) (P2 m ρ c) (Proc.devRef .tc main_v17) = _
  dsimp only [hostOps0_2]
  after_results
  unfold dcolV
  rw [← p2_dis m ρ c]
  generalize P2 m ρ c (Proc.devRef .tc main_v16) = D
  rfl

end Cert.KernelIdeal.GcnChain

end
-- ==== Proof.LibTRef.lean ====
/-
  A typed reference to a buffer carries a value of the reference's stated type to the buffer's own contents type and
  back along the equation of the two types. Carrying there and back is the identity, whatever the buffer is: the
  statement needs no knowledge of the program's buffer table.
-/
import Idealize.ShloMosaic.Lib.StableHlo

namespace Cert.TRefLemmas

open Idealize.ShloMosaic Idealize.ShloMosaic.StableHlo

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.TRefLemmas
-- ==== Proof.Payload.lean ====
/-
  What each kernel body stores, read at an index, on the extended reals. Both bodies are the same shape: the loaded
  row block and the weight matrix are multiplied (the narrowing to a shorter float format is the identity here, and
  the accumulator starts at zero), and every row of the product is scaled by that row's entry of the loaded column.
  So the stored block at row `p`, column `q` is  (∑ₖ x[p,k] · w[k,q]) · s[p,0].
-/
import proofs.«109751_j7026566496715_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.GcnPayload

open Cert.KernelIdeal Cert.KernelIdeal.Gen Idealize.ShloMosaic Idealize.ShloMosaic.ValueIdx

/-- The contraction record of the block product (4000×512)·(512×16). -/
abbrev dotA := dot_S4000x512_S512x16_S4000x16_1_0_0_1_n_n

theorem dotA_lhs0 (i : S4000x16.Idx) (q : dotA.contr.Idx) : (dotA.lhsIdx i q 0).val = (i 0).val := by
  unfold DotDims.lhsIdx
  rw [dif_neg (show ¬(0 : Fin S4000x512.rank) ∈ dotA.lhsBatch by decide), dif_pos (show (0 : Fin S4000x512.rank) ∈ dotA.lhsNonContracting by decide)]
  rfl
theorem dotA_lhs1 (i : S4000x16.Idx) (q : dotA.contr.Idx) : (dotA.lhsIdx i q 1).val = (q ⟨0, by decide⟩).val :=
  dotA.lhsIdx_val_of_single rfl i q
theorem dotA_rhs0 (i : S4000x16.Idx) (q : dotA.contr.Idx) : (dotA.rhsIdx i q 0).val = (q ⟨0, by decide⟩).val :=
  dotA.rhsIdx_val_of_single rfl i q
theorem dotA_rhs1 (i : S4000x16.Idx) (q : dotA.contr.Idx) : (dotA.rhsIdx i q 1).val = (i 1).val := by
  unfold DotDims.rhsIdx
  rw [dif_neg (show ¬(1 : Fin S512x16.rank) ∈ dotA.rhsBatch by decide), dif_pos (show (1 : Fin S512x16.rank) ∈ dotA.rhsNonContracting by decide)]
  rfl

/-- The block product into a zero accumulator, at row `p` and column `q`: the sum over the contracted axis of the
    row's entries times the column's. -/
theorem dotA_apply {φ₁ φ₂ : FTy} (a : FVec Ideal S4000x512 φ₁) (b : FVec Ideal S512x16 φ₂) (p : Fin 4000) (q : Fin 16) :
    FloatOps.matmul dotA none a b (constant S4000x16 .f32 0x00000000#32) (ix2 p q) = ∑ k : Fin 512, a (ix2 p k) * b (ix2 k q) := by
  rw [Ideal.matmul_constant_zero_apply, ← Equiv.sum_comp (ValueIdx.contrEquiv1 dotA 512 rfl rfl).symm]
  refine Finset.sum_congr rfl fun k _ => ?_
  have hk := ValueIdx.contrEquiv1_symm_val dotA 512 rfl rfl k
  have el : dotA.lhsIdx (ix2 p q) ((ValueIdx.contrEquiv1 dotA 512 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p q) ((ValueIdx.contrEquiv1 dotA 512 rfl rfl).symm k) = ix2 k q := funext fun a => Fin.ext (by
    match a with
    | ⟨0, _⟩ => exact (dotA_rhs0 _ _).trans hk
    | ⟨1, _⟩ => exact dotA_rhs1 _ _)
  rw [el, er]

/-- The contraction record of the block product (4000×16)·(16×64). -/
abbrev dotB := dot_S4000x16_S16x64_S4000x64_1_0_0_1_n_n

theorem dotB_lhs0 (i : S4000x64.Idx) (q : dotB.contr.Idx) : (dotB.lhsIdx i q 0).val = (i 0).val := by
  unfold DotDims.lhsIdx
  rw [dif_neg (show ¬(0 : Fin S4000x16.rank) ∈ dotB.lhsBatch by decide), dif_pos (show (0 : Fin S4000x16.rank) ∈ dotB.lhsNonContracting by decide)]
  rfl
theorem dotB_lhs1 (i : S4000x64.Idx) (q : dotB.contr.Idx) : (dotB.lhsIdx i q 1).val = (q ⟨0, by decide⟩).val :=
  dotB.lhsIdx_val_of_single rfl i q
theorem dotB_rhs0 (i : S4000x64.Idx) (q : dotB.contr.Idx) : (dotB.rhsIdx i q 0).val = (q ⟨0, by decide⟩).val :=
  dotB.rhsIdx_val_of_single rfl i q
theorem dotB_rhs1 (i : S4000x64.Idx) (q : dotB.contr.Idx) : (dotB.rhsIdx i q 1).val = (i 1).val := by
  unfold DotDims.rhsIdx
  rw [dif_neg (show ¬(1 : Fin S16x64.rank) ∈ dotB.rhsBatch by decide), dif_pos (show (1 : Fin S16x64.rank) ∈ dotB.rhsNonContracting by decide)]
  rfl

/-- The block product into a zero accumulator, at row `p` and column `q`: the sum over the contracted axis of the
    row's entries times the column's. -/
theorem dotB_apply {φ₁ φ₂ : FTy} (a : FVec Ideal S4000x16 φ₁) (b : FVec Ideal S16x64 φ₂) (p : Fin 4000) (q : Fin 64) :
    FloatOps.matmul dotB none a b (constant S4000x64 .f32 0x00000000#32) (ix2 p q) = ∑ k : Fin 16, a (ix2 p k) * b (ix2 k q) := by
  rw [Ideal.matmul_constant_zero_apply, ← Equiv.sum_comp (ValueIdx.contrEquiv1 dotB 16 rfl rfl).symm]
  refine Finset.sum_congr rfl fun k _ => ?_
  have hk := ValueIdx.contrEquiv1_symm_val dotB 16 rfl rfl k
  have el : dotB.lhsIdx (ix2 p q) ((ValueIdx.contrEquiv1 dotB 16 rfl rfl).symm k) = ix2 p k := funext fun a => Fin.ext (by
    match a with
    | ⟨0, _⟩ => exact dotB_lhs0 _ _
    | ⟨1, _⟩ => exact (dotB_lhs1 _ _).trans hk)
  have er : dotB.rhsIdx (ix2 p q) ((ValueIdx.contrEquiv1 dotB 16 rfl rfl).symm k) = ix2 k q := funext fun a => Fin.ext (by
    match a with
    | ⟨0, _⟩ => exact (dotB_rhs0 _ _).trans hk
    | ⟨1, _⟩ => exact dotB_rhs1 _ _)
  rw [el, er]

/-- A column block spread over `n` columns reads, at row `p`, the column's entry of that row. -/
theorem colA_apply (s : FVec Ideal S4000x1 .f32) (p : Fin 4000) (q : Fin 16) :
    broadcastTo S4000x16 (shapeCast S4000x1 s shapeCasts_S4000x1_S4000x1) broadcasts_S4000x1_S4000x16 (ix2 p q) = s (ix2 p (0 : Fin 1)) := by
  rw [shapeCast_self]
  exact broadcastTo_apply s broadcasts_S4000x1_S4000x16 (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

theorem colB_apply (s : FVec Ideal S4000x1 .f32) (p : Fin 4000) (q : Fin 64) :
    broadcastTo S4000x64 (shapeCast S4000x1 s shapeCasts_S4000x1_S4000x1) broadcasts_S4000x1_S4000x64 (ix2 p q) = s (ix2 p (0 : Fin 1)) := by
  rw [shapeCast_self]
  exact broadcastTo_apply s broadcasts_S4000x1_S4000x64 (ix2 p q) (ix2 p (0 : Fin 1)) (fun a => match a with
    | ⟨0, _⟩ => by show p.val = if (4000 : Nat) = 1 then 0 else p.val; rw [if_neg (by decide)]
    | ⟨1, _⟩ => by show 0 = if (1 : Nat) = 1 then 0 else q.val; rw [if_pos rfl])

/-- The first body's stored block at `(p, q)`. -/
theorem payA_apply (x : Vec Ideal S4000x512 .f32) (w : Vec Ideal S512x16 .f32) (s : Vec Ideal S4000x1 .f32) (p : Fin 4000) (q : Fin 16) :
    k0_pay1 (F := Ideal) x w s (ix2 p q) = (∑ k : Fin 512, x (ix2 p k) * w (ix2 k q)) * s (ix2 p (0 : Fin 1)) := by
  unfold k0_pay1
  refine (mulf_apply _ _ _).trans ?_
  refine congrArg₂ (· * ·) ?_ (colA_apply s p q)
  exact dotA_apply (truncf .bf16 x bitsLt_bf16_f32) (truncf .bf16 w bitsLt_bf16_f32) p q

/-- The second body's stored block at `(p, q)` (its row block passes through a cast to its own shape first). -/
theorem payB_apply (x : Vec Ideal S4000x16 .f32) (w : Vec Ideal S16x64 .f32) (s : Vec Ideal S4000x1 .f32) (p : Fin 4000) (q : Fin 64) :
    k1_pay1 (F := Ideal) x w s (ix2 p q) = (∑ k : Fin 16, x (ix2 p k) * w (ix2 k q)) * s (ix2 p (0 : Fin 1)) := by
  unfold k1_pay1
  rw [shapeCast_self]
  refine (mulf_apply _ _ _).trans ?_
  refine congrArg₂ (· * ·) ?_ (colB_apply s p q)
  exact dotB_apply (truncf .bf16 x bitsLt_bf16_f32) (truncf .bf16 w bitsLt_bf16_f32) p q

end Cert.KernelIdeal.GcnPayload

end
-- ==== Proof.Region0.lean ====
/-
  The first kernel region's output array as ONE function of the arrays the region finds. The grid has 25 points;
  point `t` reads rows 4000·t … 4000·t + 3999 of the feature matrix and of the scaling column, the whole weight
  matrix, and writes rows 4000·t … 4000·t + 3999 of the output. Its stored block at `(p, q)` is
  (∑ₖ x[p,k] · w[k,q]) · s[p,0] of the loaded blocks, so the output array at `(r, q)` is
  (∑ₖ X[r,k] · W[k,q]) · S[r,0] of the whole arrays: each block is a restriction of that one function, and the 25
  row blocks tile the array.
-/
import proofs.«109751_j7026566496715_2_alg».proof.Proof.Gen.KernelIdeal.Frame
import proofs.«109751_j7026566496715_2_alg».proof.Proof.Payload
import proofs.«109751_j7026566496715_2_alg».proof.Proof.KernelSpec

set_option maxRecDepth 16384

noncomputable section

namespace Cert.KernelIdeal.GcnRegion0

open Cert.KernelIdeal Cert.KernelIdeal.Gen Cert.KernelIdeal.GcnPayload Cert.KernelIdeal.GcnSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block `t`, the weight window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := lt_of_lt_of_eq t.isLt N_0

/-- Row `p` of point `t`'s block is row 4000·t + p of the array. -/
def rowOf (t : Fin cfg0.N) (p : Fin 4000) : Fin 100000 := ⟨t.val * 4000 + p.val, by have := t_lt t; have := p.isLt; omega⟩

/-- The feature window's block at point `t`: rows 4000·t … of the feature matrix. -/
theorem blk_x (c : Dev nD) (t : Fin cfg0.N) (p : Fin 4000) (k : Fin 512) :
    (iblk0 V c 0 t : Vec Ideal S4000x512 .f32) (ix2 p k) = (V c main_arg0 : S100000x512.Idx → EReal) (ix2 (rowOf t p) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 512 + 1 * k.val = k.val; rw [e1]; omega

/-- The weight window's block at every point is the whole weight matrix. -/
theorem blk_w (c : Dev nD) (t : Fin cfg0.N) (k : Fin 512) (q : Fin 16) :
    (iblk0 V c 1 t : Vec Ideal S512x16 .f32) (ix2 k q) = (V c main_arg2 : S512x16.Idx → EReal) (ix2 k q) := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * k.val = k.val; rw [e2]; omega
  | ⟨1, _⟩ => show win0_1.index t (1 : Fin 2) * 16 + 1 * q.val = q.val; rw [e3]; omega

/-- The scaling window's block at point `t`: rows 4000·t … of the scaling column. -/
theorem blk_s (c : Dev nD) (t : Fin cfg0.N) (p : Fin 4000) :
    (iblk0 V c 2 t : Vec Ideal S4000x1 .f32) (ix2 p (0 : Fin 1)) = (V c main_v17 : S100000x1.Idx → EReal) (ix2 (rowOf t p) (0 : Fin 1)) := by
  obtain ⟨-, -, -, -, e4, e5, -⟩ := idx_facts t
  unfold iblk0
  rw [View.read_apply]
  show V c main_v17 _ = V c main_v17 _
  refine congrArg (V c main_v17) (funext fun a => Fin.ext ?_)
  match a with
  | ⟨0, _⟩ => show win0_2.index t (0 : Fin 2) * 4000 + 1 * p.val = t.val * 4000 + p.val; rw [e4]; omega
  | ⟨1, _⟩ => show win0_2.index t (1 : Fin 2) * 1 + 1 * 0 = 0; rw [e5]

/-- WHAT POINT `t` WRITES BACK is block `t` of the scaled product of the arrays as the region finds them. -/
theorem flushed_eq (c : Dev nD) (t : Fin cfg0.N) :
    (dat0 V c).flushed 3 t = ((cfg0.win 3).blk t).view.read (Elt Ideal)
      (scaledProd16 (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S4000x512) hz, View.ld_unit_zero (S := S512x16) hz, View.ld_unit_zero (S := S4000x1) hz]
  obtain ⟨-, -, -, -, -, -, e6, e7⟩ := idx_facts t
  refine funext fun (j : S4000x16.Idx) => ?_
  obtain ⟨p, q, rfl⟩ : ∃ (p : Fin 4000) (q : Fin 16), j = ix2 p q := ⟨j 0, j 1, eq_ix2 j⟩
  rw [View.read_apply]
  have hemb : ((cfg0.win 3).blk t).view.emb (ix2 p q) = (ix2 (rowOf t p) q : S100000x16.Idx) := by
    funext a; apply Fin.ext
    match a with
    | ⟨0, _⟩ => show win0_3.index t (0 : Fin 2) * 4000 + 1 * p.val = t.val * 4000 + p.val; rw [e6]; omega
    | ⟨1, _⟩ => show win0_3.index t (1 : Fin 2) * 16 + 1 * q.val = q.val; rw [e7]; omega
  rw [hemb]
  refine (payA_apply (iblk0 V c 0 t) (iblk0 V c 1 t) (iblk0 V c 2 t) p q).trans ?_
  unfold scaledProd16
  exact congrArg₂ (· * ·) (Finset.sum_congr rfl fun k _ => congrArg₂ (· * ·) (blk_x V c t p k) (blk_w V c t k q)) (blk_s V c t p)

/-- An index of the output array is in point `t`'s block iff each coordinate is in the block's range on its axis. -/
theorem mem_blk (t : Fin cfg0.N) (i : S100000x16.Idx) :
    i ∈ ((cfg0.win 3).blk t).view.set ↔ ∀ a : Fin 2, win0_3.index t a * S4000x16.size a ≤ (i a).val ∧ (i a).val < win0_3.index t a * S4000x16.size a + S4000x16.size a := by
  show i ∈ ((View.whole main_v18).slice (win0_3.rect t)).set ↔ _
  rw [View.set_slice_whole, Rect.mem_set_unit]
  exact Iff.rfl

/-- The 25 row blocks cover the output array: row `r` is in the block of point `r / 4000`. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; rw [e6, ht]; omega
  | ⟨1, _⟩ => show win0_3.index t (1 : Fin 2) * 16 ≤ (i 1).val ∧ (i 1).val < win0_3.index t (1 : Fin 2) * 16 + 16; rw [e7]; omega

/-- THE OUTPUT ARRAY after the region: the scaled product of the arrays the region finds. -/
theorem final (c : Dev nD) :
    (dat0 V c).arrAt 3 cfg0.N = scaledProd16 (V c main_arg0) (V c main_arg2) (V c main_v17) :=
  (dat0 V c).arrAt_eq_of_cover 3 (scaledProd16 (V c main_arg0) (V c main_arg2) (V c main_v17)) (fun t _ => flushed_eq V c t) cover

end Cert.KernelIdeal.GcnRegion0

end
-- ==== Proof.Region1.lean ====
/-
  The second kernel region's output array as ONE function of the arrays the region finds. As in the first region,
  the grid has 25 points; point `t` reads rows 4000·t … 4000·t + 3999 of the hidden features (16 columns) and of the
  scaling column, the whole 16×64 weight matrix, and writes the same rows of the output (64 columns). The stored block
  at `(p, q)` is (∑ₖ x[p,k] · w[k,q]) · s[p,0], so the output array at `(r, q)` is (∑ₖ X[r,k] · W[k,q]) · S[r,0]; the 25
  row blocks tile the array.
-/
import proofs.«109751_j7026566496715_2_alg».proof.Proof.Gen.KernelIdeal.Frame
import proofs.«109751_j7026566496715_2_alg».proof.Proof.Payload
import proofs.«109751_j7026566496715_2_alg».proof.Proof.KernelSpec

set_option maxRecDepth 16384

noncomputable section

namespace Cert.KernelIdeal.GcnRegion1

open Cert.KernelIdeal Cert.KernelIdeal.Gen Cert.KernelIdeal.GcnPayload Cert.KernelIdeal.GcnSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block `t`, the weight window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 25 := lt_of_lt_of_eq t.isLt N_1

/-- Row `p` of point `t`'s block is row 4000·t + p of the array. -/
def rowOf (t : Fin cfg1.N) (p : Fin 4000) : Fin 100000 := ⟨t.val * 4000 + p.val, by have := t_lt t; have := p.isLt; omega⟩

/-- The hidden-feature window's block at point `t`: rows 4000·t … of the hidden features. -/
theorem blk_x (c : Dev nD) (t : Fin cfg1.N) (p : Fin 4000) (k : Fin 16) :
    (iblk1 V c 0 t : Vec Ideal S4000x16 .f32) (ix2 p k) = (V c main_v34 : S100000x16.Idx → EReal) (ix2 (rowOf t p) k) := by
  obtain ⟨e0, e1, -⟩ := idx_facts t
  unfold iblk1
  rw [View.read_apply]
  show V c main_v34 _ = V c main_v34 _
  refine congrArg (V c main_v34) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 16 + 1 * k.val = k.val; rw [e1]; omega

/-- The weight window's block at every point is the whole weight matrix. -/
theorem blk_w (c : Dev nD) (t : Fin cfg1.N) (k : Fin 16) (q : Fin 64) :
    (iblk1 V c 1 t : Vec Ideal S16x64 .f32) (ix2 k q) = (V c main_arg4 : S16x64.Idx → EReal) (ix2 k q) := by
  obtain ⟨-, -, e2, e3, -⟩ := idx_facts t
  unfold iblk1
  rw [View.read_apply]
  show V c main_arg4 _ = V c main_arg4 _
  refine congrArg (V c main_arg4) (funext fun a => Fin.ext ?_)
  match a with
  | ⟨0, _⟩ => show win1_1.index t (0 : Fin 2) * 16 + 1 * k.val = k.val; rw [e2]; omega
  | ⟨1, _⟩ => show win1_1.index t (1 : Fin 2) * 64 + 1 * q.val = q.val; rw [e3]; omega

/-- The scaling window's block at point `t`: rows 4000·t … of the scaling column. -/
theorem blk_s (c : Dev nD) (t : Fin cfg1.N) (p : Fin 4000) :
    (iblk1 V c 2 t : Vec Ideal S4000x1 .f32) (ix2 p (0 : Fin 1)) = (V c main_v17 : S100000x1.Idx → EReal) (ix2 (rowOf t p) (0 : Fin 1)) := by
  obtain ⟨-, -, -, -, e4, e5, -⟩ := idx_facts t
  unfold iblk1
  rw [View.read_apply]
  show V c main_v17 _ = V c main_v17 _
  refine congrArg (V c main_v17) (funext fun a => Fin.ext ?_)
  match a with
  | ⟨0, _⟩ => show win1_2.index t (0 : Fin 2) * 4000 + 1 * p.val = t.val * 4000 + p.val; rw [e4]; omega
  | ⟨1, _⟩ => show win1_2.index t (1 : Fin 2) * 1 + 1 * 0 = 0; rw [e5]

/-- WHAT POINT `t` WRITES BACK is block `t` of the scaled product of the arrays as the region finds them. -/
theorem flushed_eq (c : Dev nD) (t : Fin cfg1.N) :
    (dat1 V c).flushed 3 t = ((cfg1.win 3).blk t).view.read (Elt Ideal)
      (scaledProd64 (V c main_v34) (V c main_arg4) (V c main_v17)) := by
  show (cfg1.win 3).cut (grid1.coords t) ((dat1 V c).after 3 t) = _
  rw [after1_3]
  unfold out1_3
  rw [View.canon_unit_zero hz]
  simp only [View.ld_unit_zero (S := S4000x16) hz, View.ld_unit_zero (S := S16x64) hz, View.ld_unit_zero (S := S4000x1) hz]
  obtain ⟨-, -, -, -, -, -, e6, e7⟩ := idx_facts t
  refine funext fun (j : S4000x64.Idx) => ?_
  obtain ⟨p, q, rfl⟩ : ∃ (p : Fin 4000) (q : Fin 64), j = ix2 p q := ⟨j 0, j 1, eq_ix2 j⟩
  rw [View.read_apply]
  have hemb : ((cfg1.win 3).blk t).view.emb (ix2 p q) = (ix2 (rowOf t p) q : S100000x64.Idx) := by
    funext a; apply Fin.ext
    match a with
    | ⟨0, _⟩ => show win1_3.index t (0 : Fin 2) * 4000 + 1 * p.val = t.val * 4000 + p.val; rw [e6]; omega
    | ⟨1, _⟩ => show win1_3.index t (1 : Fin 2) * 64 + 1 * q.val = q.val; rw [e7]; omega
  rw [hemb]
  refine (payB_apply (iblk1 V c 0 t) (iblk1 V c 1 t) (iblk1 V c 2 t) p q).trans ?_
  unfold scaledProd64
  exact congrArg₂ (· * ·) (Finset.sum_congr rfl fun k _ => congrArg₂ (· * ·) (blk_x V c t p k) (blk_w V c t k q)) (blk_s V c t p)

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v35).slice (win1_3.rect t)).set ↔ _
  rw [View.set_slice_whole, Rect.mem_set_unit]
  exact Iff.rfl

/-- The 25 row blocks cover the output array: row `r` is in the block of point `r / 4000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; rw [e6, ht]; omega
  | ⟨1, _⟩ => show win1_3.index t (1 : Fin 2) * 64 ≤ (i 1).val ∧ (i 1).val < win1_3.index t (1 : Fin 2) * 64 + 64; rw [e7]; omega

/-- THE OUTPUT ARRAY after the region: the scaled product of the arrays the region finds. -/
theorem final (c : Dev nD) :
    (dat1 V c).arrAt 3 cfg1.N = scaledProd64 (V c main_v34) (V c main_arg4) (V c main_v17) :=
  (dat1 V c).arrAt_eq_of_cover 3 (scaledProd64 (V c main_v34) (V c main_arg4) (V c main_v17)) (fun t _ => flushed_eq V c t) cover

end Cert.KernelIdeal.GcnRegion1

end
-- ==== Proof.HostChain.lean ====
/-
  The idealized kernel program's result as a function of its arguments, read boundary by boundary from the first
  kernel region's entry on. A kernel region changes only its output array, which ends at the scaled product of what
  the region finds in its three input arrays; between the regions the host operations gather the scaled rows by
  source node, scatter-add them by destination node, scale by the destination's entry and add the bias, and an
  outlined function takes the larger of each entry and zero; after the second region the same propagation at 64
  columns and the log-softmax function. At each boundary every buffer a later segment reads is named by its function
  of the six arguments.
-/
import proofs.«109751_j7026566496715_2_alg».proof.Proof.Gen.KernelIdeal.Frame
import proofs.«109751_j7026566496715_2_alg».proof.Proof.KernelSpec
import proofs.«109751_j7026566496715_2_alg».proof.Proof.ChainNorm
import proofs.«109751_j7026566496715_2_alg».proof.Proof.LibTRef
import proofs.«109751_j7026566496715_2_alg».proof.Proof.Region0
import proofs.«109751_j7026566496715_2_alg».proof.Proof.Region1

set_option maxRecDepth 16384

noncomputable section

namespace Cert.KernelIdeal.GcnChain

open Cert.KernelIdeal Cert.KernelIdeal.Gen Cert.KernelIdeal.GcnSpec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- What the first region leaves, the first layer before and after the larger-of-zero function, what the second
    region leaves. -/
abbrev T1 : S100000x16.Idx → EReal := scaledProd16 (aX m c) (aW1 m c) (dcolV (F := Ideal) (aE m c))
abbrev Y1 : S100000x16.Idx → EReal :=
  layerK16 (F := Ideal) (T1 m c) (dcolV (F := Ideal) (aE m c)) (srcV (aE m c)) (dstV (aE m c)) (aB1 m c)
abbrev H1 : S100000x16.Idx → EReal := relu16 (F := Ideal) (Y1 m c)
abbrev T2 : S100000x64.Idx → EReal := scaledProd64 (H1 m c) (aW2 m c) (dcolV (F := Ideal) (aE m c))
abbrev Y2 : S100000x64.Idx → EReal :=
  layerK64 (F := Ideal) (T2 m c) (dcolV (F := Ideal) (aE m c)) (srcV (aE m c)) (dstV (aE m c)) (aB2 m c)

/-- The kernel program's value is the log-softmax function of the second layer. -/
theorem kernelValue_eq : kernelValue (aX m c) (aE m c) (aW1 m c) (aB1 m c) (aW2 m c) (aB2 m c) = logSoftmax (F := Ideal) (Y2 m c) := rfl

/-! ## At the first region's exit: its output array at the scaled product, the rest as entered -/

theorem b4_T1 : W4 m ρ c (Proc.devRef .tc main_v18) = T1 m c := by
  refine (W4_arr m ρ c 3).trans ?_
  refine (GcnRegion0.final (V3 m ρ) c).trans ?_
  dsimp only [V3]
  rw [b3_x, b3_w1, b3_dcol]
theorem b4_dcol : W4 m ρ c (Proc.devRef .tc main_v17) = dcolV (F := Ideal) (aE m c) :=
  ((W4_arr m ρ c 2).trans (((dat0 (V3 m ρ) c).arrAt_in 2 rfl _).trans (A_eq0 (V3 m ρ) c 2))).trans (b3_dcol m ρ c)
theorem b4_src : W4 m ρ c (Proc.devRef .tc main_v3) = srcV (aE m c) := (W4_of_ne m ρ c main_v3 (by decide)).trans (b3_src m ρ c)
theorem b4_dst : W4 m ρ c (Proc.devRef .tc main_v6) = dstV (aE m c) := (W4_of_ne m ρ c main_v6 (by decide)).trans (b3_dst m ρ c)
theorem b4_b1 : W4 m ρ c (Proc.devRef .tc main_arg3) = aB1 m c := (W4_of_ne m ρ c main_arg3 (by decide)).trans (b3_b1 m ρ c)
theorem b4_w2 : W4 m ρ c (Proc.devRef .tc main_arg4) = aW2 m c := (W4_of_ne m ρ c main_arg4 (by decide)).trans (b3_w2 m ρ c)
theorem b4_b2 : W4 m ρ c (Proc.devRef .tc main_arg5) = aB2 m c := (W4_of_ne m ρ c main_arg5 (by decide)).trans (b3_b2 m ρ c)

/-! ## The first layer's host operations, then the larger-of-zero function -/

/-- The contents after the stretch between the regions, before the outlined function. -/
def P5 : Valuation τ sig (Elt Ideal) := W5 m ρ c

set_option maxHeartbeats 4000000 in
theorem p5_Y1 : P5 m ρ c (Proc.devRef .tc main_v33) = Y1 m c := by
  unfold P5
  dsimp only [W5, hostOps1]
  after_results_simp
  rw [b4_T1, b4_dcol, b4_src, b4_dst, b4_b1]
  unfold Y1 layerK16 rawIx wrapIx bias16
  rfl
theorem p5_dcol : P5 m ρ c (Proc.devRef .tc main_v17) = dcolV (F := Ideal) (aE m c) := by
  unfold P5
  dsimp only [W5, hostOps1]
  after_results_simp
  exact b4_dcol m ρ c
theorem p5_src : P5 m ρ c (Proc.devRef .tc main_v3) = srcV (aE m c) := by
  unfold P5
  dsimp only [W5, hostOps1]
  after_results_simp
  exact b4_src m ρ c
theorem p5_dst : P5 m ρ c (Proc.devRef .tc main_v6) = dstV (aE m c) := by
  unfold P5
  dsimp only [W5, hostOps1]
  after_results_simp
  exact b4_dst m ρ c
theorem p5_w2 : P5 m ρ c (Proc.devRef .tc main_arg4) = aW2 m c := by
  unfold P5
  dsimp only [W5, hostOps1]
  after_results_simp
  exact b4_w2 m ρ c
theorem p5_b2 : P5 m ρ c (Proc.devRef .tc main_arg5) = aB2 m c := by
  unfold P5
  dsimp only [W5, hostOps1]
  after_results_simp
  exact b4_b2 m ρ c

theorem b6_H1 : W6 m ρ c (Proc.devRef .tc main_v34) = H1 m c := by
  show after (hostOps1_1 (F := Ideal)) (P5 m ρ c) (Proc.devRef .tc main_v34) = _
  dsimp only [hostOps1_1]
  after_results_simp
  unfold H1 relu16
  rw [← p5_Y1 m ρ c]
  generalize P5 m ρ c (Proc.devRef .tc main_v33) = Y
  rfl
theorem b6_dcol : W6 m ρ c (Proc.devRef .tc main_v17) = dcolV (F := Ideal) (aE m c) := by
  show after (hostOps1_1 (F := Ideal)) (P5 m ρ c) (Proc.devRef .tc main_v17) = _
  dsimp only [hostOps1_1]
  after_results_simp
  exact p5_dcol m ρ c
theorem b6_src : W6 m ρ c (Proc.devRef .tc main_v3) = srcV (aE m c) := by
  show after (hostOps1_1 (F := Ideal)) (P5 m ρ c) (Proc.devRef .tc main_v3) = _
  dsimp only [hostOps1_1]
  after_results_simp
  exact p5_src m ρ c
theorem b6_dst : W6 m ρ c (Proc.devRef .tc main_v6) = dstV (aE m c) := by
  show after (hostOps1_1 (F := Ideal)) (P5 m ρ c) (Proc.devRef .tc main_v6) = _
  dsimp only [hostOps1_1]
  after_results_simp
  exact p5_dst m ρ c
theorem b6_w2 : W6 m ρ c (Proc.devRef .tc main_arg4) = aW2 m c := by
  show after (hostOps1_1 (F := Ideal)) (P5 m ρ c) (Proc.devRef .tc main_arg4) = _
  dsimp only [hostOps1_1]
  after_results_simp
  exact p5_w2 m ρ c
theorem b6_b2 : W6 m ρ c (Proc.devRef .tc main_arg5) = aB2 m c := by
  show after (hostOps1_1 (F := Ideal)) (P5 m ρ c) (Proc.devRef .tc main_arg5) = _
  dsimp only [hostOps1_1]
  after_results_simp
  exact p5_b2 m ρ c

/-! ## At the second region's exit -/

theorem b7_T2 : W7 m ρ c (Proc.devRef .tc main_v35) = T2 m c := by
  refine (W7_arr m ρ c 3).trans ?_
  refine (GcnRegion1.final (V6 m ρ) c).trans ?_
  dsimp only [V6]
  rw [b6_H1, b6_w2, b6_dcol]
theorem b7_dcol : W7 m ρ c (Proc.devRef .tc main_v17) = dcolV (F := Ideal) (aE m c) :=
  ((W7_arr m ρ c 2).trans (((dat1 (V6 m ρ) c).arrAt_in 2 rfl _).trans (A_eq1 (V6 m ρ) c 2))).trans (b6_dcol m ρ c)
theorem b7_src : W7 m ρ c (Proc.devRef .tc main_v3) = srcV (aE m c) := (W7_of_ne m ρ c main_v3 (by decide)).trans (b6_src m ρ c)
theorem b7_dst : W7 m ρ c (Proc.devRef .tc main_v6) = dstV (aE m c) := (W7_of_ne m ρ c main_v6 (by decide)).trans (b6_dst m ρ c)
theorem b7_b2 : W7 m ρ c (Proc.devRef .tc main_arg5) = aB2 m c := (W7_of_ne m ρ c main_arg5 (by decide)).trans (b6_b2 m ρ c)

/-! ## The second layer's host operations, then the log-softmax function -/

/-- The contents after the stretch that follows the second region, before the outlined function. -/
def P8 : Valuation τ sig (Elt Ideal) := W8 m ρ c

set_option maxHeartbeats 4000000 in
theorem p8_Y2 : P8 m ρ c (Proc.devRef .tc main_v50) = Y2 m c := by
  unfold P8
  dsimp only [W8, hostOps2]
  after_results_simp
  rw [b7_T2, b7_dcol, b7_src, b7_dst, b7_b2]
  unfold Y2 layerK64 rawIx wrapIx bias64
  rfl

set_option maxHeartbeats 4000000 in
/-- THE RESULT ARRAY's contents at the last boundary: the kernel program's value of the six arguments. -/
theorem b9_result : W9 m ρ c (Proc.devRef .tc main_v51)
    = kernelValue (aX m c) (aE m c) (aW1 m c) (aB1 m c) (aW2 m c) (aB2 m c) := by
  show after (hostOps2_1 (F := Ideal)) (P8 m ρ c) (Proc.devRef .tc main_v51) = _
  dsimp only [hostOps2_1]
  after_results_simp
  simp only [Cert.TRefLemmas.ofBuf_toBuf]
  rw [kernelValue_eq, ← p8_Y2 m ρ c]
  generalize P8 m ρ c (Proc.devRef .tc main_v50) = Y
  have h50 : (TRef.of (T := ⟨S100000x64, .f32⟩) main_v50 : TRef sig _).ofBuf (Val := Elt Ideal) Y = Y := rfl
  rw [h50]
  unfold logSoftmax
  rfl

end Cert.KernelIdeal.GcnChain

end
-- ==== Proof.RefSpec.lean ====
/-
  The mathematics of the idealized reference program, as functions of whole arrays. It shares with the kernel
  program the edge lists with self loops, the normalisation vector, the biases and the two outlined functions (stated
  once, beside the kernel's functions); what differs is the arrangement of a layer: the reference multiplies the plain
  product `H = X · W`, gathered by source node, by the edge's weight — the normalisation at the edge's source times the
  normalisation at its destination, both gathered — and scatter-adds that by destination node, plus the bias.
-/
import proofs.«109751_j7026566496715_2_alg».proof.Proof.Gen.ReferenceIdeal
import proofs.«109751_j7026566496715_2_alg».proof.Proof.KernelSpec

noncomputable section

namespace Cert.ReferenceIdeal.GcnSpec

open Cert.ReferenceIdeal Cert.ReferenceIdeal.Gen Idealize.ShloMosaic Idealize.ShloMosaic.ValueIdx
open Cert.KernelIdeal.GcnSpec (srcV dstV rawIx wrapIx disV bias16 bias64 relu16 logSoftmax)

variable {F : FTy → Type} [FloatOps F]

/-- Each edge's weight: the normalisation at its source node times the normalisation at its destination node. -/
def normR (D : FVec F S100000 .f32) (src dst : IVec S3300000 32) : FVec F S3300000 .f32 :=
  mulf (Host.gather gather_S100000_S3300000x1_S3300000_n_0_n_n_0_1_1 D (wrapIx src))
    (Host.gather gather_S100000_S3300000x1_S3300000_n_0_n_n_0_1_1 D (wrapIx dst))

/-- The first layer's propagation as the reference does it: rows of `H` gathered by source node, each times its edge's
    weight, scatter-added by destination node onto zeros, plus the bias. -/
def layerR16 (H : FVec F S100000x16 .f32) (D : FVec F S100000 .f32) (src dst : IVec S3300000 32) (b : FVec F S16 .f32) :
    FVec F S100000x16 .f32 :=
  addf (Host.scatterAdd scatter_S100000x16_S3300000x1_S3300000x16_1_0_0_1
      (broadcastInDim S100000x16 ![] bcast_S_S100000x16 (constant (F := F) S_ .f32 0x00000000#32))
      (rawIx dst)
      (mulf (Host.gather gather_S100000x16_S3300000x1_S3300000x16_1_0_n_n_0_1_116 H (wrapIx src))
        (broadcastInDim S3300000x16 ![0, 1] bcast_S3300000x1_S3300000x16_0_1
          (broadcastInDim S3300000x1 ![0] bcast_S3300000_S3300000x1_0 (normR D src dst)))))
    (bias16 b)

/-- The second layer's propagation as the reference does it (64 columns). -/
def layerR64 (H : FVec F S100000x64 .f32) (D : FVec F S100000 .f32) (src dst : IVec S3300000 32) (b : FVec F S64 .f32) :
    FVec F S100000x64 .f32 :=
  addf (Host.scatterAdd scatter_S100000x64_S3300000x1_S3300000x64_1_0_0_1
      (broadcastInDim S100000x64 ![] bcast_S_S100000x64 (constant (F := F) S_ .f32 0x00000000#32))
      (rawIx dst)
      (mulf (Host.gather gather_S100000x64_S3300000x1_S3300000x64_1_0_n_n_0_1_164 H (wrapIx src))
        (broadcastInDim S3300000x64 ![0, 1] bcast_S3300000x1_S3300000x64_0_1
          (broadcastInDim S3300000x1 ![0] bcast_S3300000_S3300000x1_0 (normR D src dst)))))
    (bias64 b)

/-- THE REFERENCE PROGRAM'S RESULT as a function of its six arguments, at the extended reals. -/
def referenceValue (x : FVec Ideal S100000x512 .f32) (e : IVec S2x3200000 32) (w1 : FVec Ideal S512x16 .f32) (b1 : FVec Ideal S16 .f32)
    (w2 : FVec Ideal S16x64 .f32) (b2 : FVec Ideal S64 .f32) : FVec Ideal S100000x64 .f32 :=
  logSoftmax (F := Ideal)
    (layerR64 (F := Ideal)
      (Host.dotGeneral dot_S100000x16_S16x64_S100000x64_1_0_0_1_n_n none
        (relu16 (F := Ideal) (layerR16 (F := Ideal)
          (Host.dotGeneral dot_S100000x512_S512x16_S100000x16_1_0_0_1_n_n none x w1)
          (disV (F := Ideal) e) (srcV e) (dstV e) b1))
        w2)
      (disV (F := Ideal) e) (srcV e) (dstV e) b2)

end Cert.ReferenceIdeal.GcnSpec

end
-- ==== Proof.RefChain.lean ====
/-
  The idealized reference program's run, read in eleven segments. The program is a straight line of 120 host
  operations; its result term, written out whole, repeats the normalisation vector sixteen times, so the line is cut
  where the repeated values are complete: after the edge lists (7 operations), the degree (13), the two operands of the
  normalisation's select (20), the normalisation (24), the first layer (63) and its larger-of-zero function (66), the
  second layer (105), and inside the log-softmax function after each row's largest entry (110), the rows minus it
  (113) and the row sums of the exponentials (116). At each cut the buffers later operations read are named by their
  function of the six arguments, and the next segment is read over those names. The result array ends at
  `referenceValue` of the arguments; no operation writes an argument.
-/
import proofs.«109751_j7026566496715_2_alg».proof.Proof.RefRun
import proofs.«109751_j7026566496715_2_alg».proof.Proof.RefSpec
import proofs.«109751_j7026566496715_2_alg».proof.Proof.LibTRef
import Idealize.ShloMosaic.Lib.Pipeline.Frame

set_option maxRecDepth 16384

noncomputable section

namespace Cert.ReferenceIdeal.GcnChain

open Cert.ReferenceIdeal Cert.ReferenceIdeal.Gen Cert.ReferenceIdeal.ValueP Cert.ReferenceIdeal.GcnSpec
open Cert.KernelIdeal.GcnSpec (srcV dstV disV relu16 logSoftmax)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The six arguments as core `c` is launched with them. -/
abbrev aX : FVec Ideal S100000x512 .f32 := m ((c.tc : Thread nD τ).loc main_arg0)
abbrev aE : IVec S2x3200000 32 := m ((c.tc : Thread nD τ).loc main_arg1)
abbrev aW1 : FVec Ideal S512x16 .f32 := m ((c.tc : Thread nD τ).loc main_arg2)
abbrev aB1 : FVec Ideal S16 .f32 := m ((c.tc : Thread nD τ).loc main_arg3)
abbrev aW2 : FVec Ideal S16x64 .f32 := m ((c.tc : Thread nD τ).loc main_arg4)
abbrev aB2 : FVec Ideal S64 .f32 := m ((c.tc : Thread nD τ).loc main_arg5)

open Cert.KernelIdeal.GcnSpec (degV rawIx wrapIx bias16 bias64)

/-- The hidden features: the first layer in the reference's arrangement, then the larger of each entry and zero. -/
abbrev H1 : FVec Ideal S100000x16 .f32 :=
  relu16 (F := Ideal) (layerR16 (F := Ideal) (Host.dotGeneral dot_S100000x512_S512x16_S100000x16_1_0_0_1_n_n none (aX m c) (aW1 m c))
    (disV (F := Ideal) (aE m c)) (srcV (aE m c)) (dstV (aE m c)) (aB1 m c))

/-- The second layer's array, before the log-softmax function. -/
abbrev Y2 : FVec Ideal S100000x64 .f32 :=
  layerR64 (F := Ideal) (Host.dotGeneral dot_S100000x16_S16x64_S100000x64_1_0_0_1_n_n none (H1 m c) (aW2 m c))
    (disV (F := Ideal) (aE m c)) (srcV (aE m c)) (dstV (aE m c)) (aB2 m c)

/-- The log-softmax function's three inner arrays: each row's largest entry (at least minus infinity), the rows minus
    it, and the row sums of their exponentials. -/
def lsM (Y : FVec Ideal S100000x64 .f32) : FVec Ideal S100000 .f32 :=
  maximumf (broadcastInDim S100000 ![] bcast_S_S100000 (constant (F := Ideal) S_ .f32 0xFF800000#32))
    (Host.reduce FloatOps.maximumf Y (constant (F := Ideal) S_ .f32 0xFF800000#32) reducesTo_S100000x64_S100000_d1 h_S_)
def lsZ (Y : FVec Ideal S100000x64 .f32) : FVec Ideal S100000x64 .f32 :=
  subf Y (broadcastInDim S100000x64 ![0, 1] bcast_S100000x1_S100000x64_0_1 (broadcastInDim S100000x1 ![0] bcast_S100000_S100000x1_0 (lsM Y)))
def lsS (Y : FVec Ideal S100000x64 .f32) : FVec Ideal S100000 .f32 :=
  Host.reduceAdd (Host.exp (lsZ Y)) (constant (F := Ideal) S_ .f32 0x00000000#32) reducesTo_S100000x64_S100000_d1 h_S_

/-- The log-softmax function in those three arrays. -/
theorem logSoftmax_eq (Y : FVec Ideal S100000x64 .f32) :
    logSoftmax (F := Ideal) Y
      = subf (lsZ Y) (broadcastInDim S100000x64 ![0, 1] bcast_S100000x1_S100000x64_0_1
          (Host.log (broadcastInDim S100000x1 ![0] bcast_S100000_S100000x1_0 (lsS Y)))) := by
  unfold logSoftmax lsS lsZ lsM
  with_reducible rfl

/-- The reference's value is the log-softmax function of the second layer's array. -/
theorem ref_eq : referenceValue (aX m c) (aE m c) (aW1 m c) (aB1 m c) (aW2 m c) (aB2 m c) = logSoftmax (F := Ideal) (Y2 m c) := by
  unfold referenceValue
  with_reducible rfl

/-- The buffer contents at the cuts: after operations 7 (the edge lists), 13 (the degree), 20 (the two operands of the
    normalisation's select), 24 (the normalisation), 63 (the first layer), 66 (its larger-of-zero), 105 (the second
    layer), and inside the log-softmax function 110 (each row's largest entry), 113 (the rows minus it), 116 (the row
    sums of the exponentials). -/
def V1 : Valuation τ sig (Elt Ideal) := after (List.take 7 (ops (F := Ideal))) (launchContents m c)
def V2 : Valuation τ sig (Elt Ideal) := after (List.take 6 (List.drop 7 (ops (F := Ideal)))) (V1 m c)
def V3 : Valuation τ sig (Elt Ideal) := after (List.take 7 (List.drop 13 (ops (F := Ideal)))) (V2 m c)
def V4 : Valuation τ sig (Elt Ideal) := after (List.take 4 (List.drop 20 (ops (F := Ideal)))) (V3 m c)
def V5 : Valuation τ sig (Elt Ideal) := after (List.take 39 (List.drop 24 (ops (F := Ideal)))) (V4 m c)
def V6 : Valuation τ sig (Elt Ideal) := after (List.take 3 (List.drop 63 (ops (F := Ideal)))) (V5 m c)
def V7 : Valuation τ sig (Elt Ideal) := after (List.take 39 (List.drop 66 (ops (F := Ideal)))) (V6 m c)
def V8 : Valuation τ sig (Elt Ideal) := after (List.take 5 (List.drop 105 (ops (F := Ideal)))) (V7 m c)
def V9 : Valuation τ sig (Elt Ideal) := after (List.take 3 (List.drop 110 (ops (F := Ideal)))) (V8 m c)
def V10 : Valuation τ sig (Elt Ideal) := after (List.take 3 (List.drop 113 (ops (F := Ideal)))) (V9 m c)

/-- The whole line is the eleven segments one after the other. -/
theorem split : after (ops (F := Ideal)) (launchContents m c) = after (List.drop 116 (ops (F := Ideal))) (V10 m c) := by
  unfold V10 V9 V8 V7 V6 V5 V4 V3 V2 V1
  rw [← StableHlo.after_append, ← StableHlo.after_append, ← StableHlo.after_append, ← StableHlo.after_append,
    ← StableHlo.after_append, ← StableHlo.after_append, ← StableHlo.after_append, ← StableHlo.after_append,
    ← StableHlo.after_append, ← StableHlo.after_append]
  rfl

/-- The degree's scatter record is the same dimension numbers in the two programs' namespaces. -/
theorem scatDeg_RK : Cert.ReferenceIdeal.scatter_S100000_S3300000x1_S3300000_n_0_0_1
    = Cert.KernelIdeal.scatter_S100000_S3300000x1_S3300000_n_0_0_1 := rfl

/-- A segment of the line written out. -/
macro "seg_list" : tactic =>
  `(tactic| simp only [ops, List.drop_succ_cons, List.drop_zero, List.take_succ_cons, List.take_zero])

/-! ## After operation 7: the edge lists -/

set_option maxHeartbeats 4000000 in
theorem v1_src : V1 m c (Proc.devRef .tc main_v3) = srcV (aE m c) := by
  unfold V1; seg_list; after_results
  rfl
set_option maxHeartbeats 4000000 in
theorem v1_dst : V1 m c (Proc.devRef .tc main_v6) = dstV (aE m c) := by
  unfold V1; seg_list; after_results
  rfl
theorem v1_x : V1 m c (Proc.devRef .tc main_arg0) = aX m c := by
  unfold V1; seg_list; after_results_simp
theorem v1_w1 : V1 m c (Proc.devRef .tc main_arg2) = aW1 m c := by
  unfold V1; seg_list; after_results_simp
theorem v1_b1 : V1 m c (Proc.devRef .tc main_arg3) = aB1 m c := by
  unfold V1; seg_list; after_results_simp
theorem v1_w2 : V1 m c (Proc.devRef .tc main_arg4) = aW2 m c := by
  unfold V1; seg_list; after_results_simp
theorem v1_b2 : V1 m c (Proc.devRef .tc main_arg5) = aB2 m c := by
  unfold V1; seg_list; after_results_simp

/-! ## After operation 13: the degree -/

set_option maxHeartbeats 4000000 in
theorem v2_deg : V2 m c (Proc.devRef .tc main_v10) = degV (F := Ideal) (aE m c) := by
  unfold V2; seg_list; after_results_simp
  rw [v1_dst]
  unfold degV rawIx
  rw [← scatDeg_RK]
theorem v2_src : V2 m c (Proc.devRef .tc main_v3) = srcV (aE m c) := by
  unfold V2; seg_list; after_results_simp; exact v1_src m c
theorem v2_dst : V2 m c (Proc.devRef .tc main_v6) = dstV (aE m c) := by
  unfold V2; seg_list; after_results_simp; exact v1_dst m c
theorem v2_x : V2 m c (Proc.devRef .tc main_arg0) = aX m c := by
  unfold V2; seg_list; after_results_simp; exact v1_x m c
theorem v2_w1 : V2 m c (Proc.devRef .tc main_arg2) = aW1 m c := by
  unfold V2; seg_list; after_results_simp; exact v1_w1 m c
theorem v2_b1 : V2 m c (Proc.devRef .tc main_arg3) = aB1 m c := by
  unfold V2; seg_list; after_results_simp; exact v1_b1 m c
theorem v2_w2 : V2 m c (Proc.devRef .tc main_arg4) = aW2 m c := by
  unfold V2; seg_list; after_results_simp; exact v1_w2 m c
theorem v2_b2 : V2 m c (Proc.devRef .tc main_arg5) = aB2 m c := by
  unfold V2; seg_list; after_results_simp; exact v1_b2 m c

/-! ## After operation 20: the two operands of the normalisation's select -/

theorem v3_gt : V3 m c (Proc.devRef .tc main_v12)
    = cmpf (F := Ideal) .ogt (degV (F := Ideal) (aE m c)) (broadcastInDim S100000 ![] bcast_S_S100000 (constant (F := Ideal) S_ .f32 0x00000000#32)) := by
  unfold V3; seg_list; after_results_simp
  rw [v2_deg]
theorem v3_rs : V3 m c (Proc.devRef .tc main_v15)
    = Host.rsqrt (maximumf (degV (F := Ideal) (aE m c)) (broadcastInDim S100000 ![] bcast_S_S100000 (constant (F := Ideal) S_ .f32 0x3F800000#32))) := by
  unfold V3; seg_list; after_results_simp
  rw [v2_deg]
theorem v3_src : V3 m c (Proc.devRef .tc main_v3) = srcV (aE m c) := by
  unfold V3; seg_list; after_results_simp; exact v2_src m c
theorem v3_dst : V3 m c (Proc.devRef .tc main_v6) = dstV (aE m c) := by
  unfold V3; seg_list; after_results_simp; exact v2_dst m c
theorem v3_x : V3 m c (Proc.devRef .tc main_arg0) = aX m c := by
  unfold V3; seg_list; after_results_simp; exact v2_x m c
theorem v3_w1 : V3 m c (Proc.devRef .tc main_arg2) = aW1 m c := by
  unfold V3; seg_list; after_results_simp; exact v2_w1 m c
theorem v3_b1 : V3 m c (Proc.devRef .tc main_arg3) = aB1 m c := by
  unfold V3; seg_list; after_results_simp; exact v2_b1 m c
theorem v3_w2 : V3 m c (Proc.devRef .tc main_arg4) = aW2 m c := by
  unfold V3; seg_list; after_results_simp; exact v2_w2 m c
theorem v3_b2 : V3 m c (Proc.devRef .tc main_arg5) = aB2 m c := by
  unfold V3; seg_list; after_results_simp; exact v2_b2 m c

/-! ## After operation 24: the normalisation -/

theorem v4_dis : V4 m c (Proc.devRef .tc main_v16) = disV (F := Ideal) (aE m c) := by
  unfold V4; seg_list; after_results_simp
  unfold disV
  rw [← v3_gt m c, ← v3_rs m c]
  generalize V3 m c (Proc.devRef .tc main_v12) = G
  generalize V3 m c (Proc.devRef .tc main_v15) = R
  rfl
theorem v4_src : V4 m c (Proc.devRef .tc main_v3) = srcV (aE m c) := by
  unfold V4; seg_list; after_results_simp; exact v3_src m c
theorem v4_dst : V4 m c (Proc.devRef .tc main_v6) = dstV (aE m c) := by
  unfold V4; seg_list; after_results_simp; exact v3_dst m c
theorem v4_x : V4 m c (Proc.devRef .tc main_arg0) = aX m c := by
  unfold V4; seg_list; after_results_simp; exact v3_x m c
theorem v4_w1 : V4 m c (Proc.devRef .tc main_arg2) = aW1 m c := by
  unfold V4; seg_list; after_results_simp; exact v3_w1 m c
theorem v4_b1 : V4 m c (Proc.devRef .tc main_arg3) = aB1 m c := by
  unfold V4; seg_list; after_results_simp; exact v3_b1 m c
theorem v4_w2 : V4 m c (Proc.devRef .tc main_arg4) = aW2 m c := by
  unfold V4; seg_list; after_results_simp; exact v3_w2 m c
theorem v4_b2 : V4 m c (Proc.devRef .tc main_arg5) = aB2 m c := by
  unfold V4; seg_list; after_results_simp; exact v3_b2 m c

/-! ## After operation 63: the first layer -/

set_option maxHeartbeats 8000000 in
theorem v5_y1 : V5 m c (Proc.devRef .tc main_v48)
    = layerR16 (F := Ideal) (Host.dotGeneral dot_S100000x512_S512x16_S100000x16_1_0_0_1_n_n none (aX m c) (aW1 m c))
        (disV (F := Ideal) (aE m c)) (srcV (aE m c)) (dstV (aE m c)) (aB1 m c) := by
  unfold V5; seg_list; after_results_simp
  rw [v4_src, v4_dst, v4_dis, v4_x, v4_w1, v4_b1]
  unfold layerR16 normR wrapIx rawIx bias16
  with_reducible rfl
theorem v5_src : V5 m c (Proc.devRef .tc main_v3) = srcV (aE m c) := by
  unfold V5; seg_list; after_results_simp; exact v4_src m c
theorem v5_dst : V5 m c (Proc.devRef .tc main_v6) = dstV (aE m c) := by
  unfold V5; seg_list; after_results_simp; exact v4_dst m c
theorem v5_dis : V5 m c (Proc.devRef .tc main_v16) = disV (F := Ideal) (aE m c) := by
  unfold V5; seg_list; after_results_simp; exact v4_dis m c
theorem v5_w2 : V5 m c (Proc.devRef .tc main_arg4) = aW2 m c := by
  unfold V5; seg_list; after_results_simp; exact v4_w2 m c
theorem v5_b2 : V5 m c (Proc.devRef .tc main_arg5) = aB2 m c := by
  unfold V5; seg_list; after_results_simp; exact v4_b2 m c

/-! ## After operation 66: the hidden features -/

theorem v6_H1 : V6 m c (Proc.devRef .tc main_v49) = H1 m c := by
  unfold V6; seg_list; after_results_simp
  unfold H1 relu16
  rw [← v5_y1 m c]
  generalize V5 m c (Proc.devRef .tc main_v48) = Y
  rfl
theorem v6_src : V6 m c (Proc.devRef .tc main_v3) = srcV (aE m c) := by
  unfold V6; seg_list; after_results_simp; exact v5_src m c
theorem v6_dst : V6 m c (Proc.devRef .tc main_v6) = dstV (aE m c) := by
  unfold V6; seg_list; after_results_simp; exact v5_dst m c
theorem v6_dis : V6 m c (Proc.devRef .tc main_v16) = disV (F := Ideal) (aE m c) := by
  unfold V6; seg_list; after_results_simp; exact v5_dis m c
theorem v6_w2 : V6 m c (Proc.devRef .tc main_arg4) = aW2 m c := by
  unfold V6; seg_list; after_results_simp; exact v5_w2 m c
theorem v6_b2 : V6 m c (Proc.devRef .tc main_arg5) = aB2 m c := by
  unfold V6; seg_list; after_results_simp; exact v5_b2 m c

/-! ## After operation 105: the second layer -/

set_option maxHeartbeats 8000000 in
theorem v7_y2 : V7 m c (Proc.devRef .tc main_v81) = Y2 m c := by
  unfold V7; seg_list; after_results_simp
  rw [v6_H1, v6_src, v6_dst, v6_dis, v6_w2, v6_b2]
  unfold Y2 layerR64 normR wrapIx rawIx bias64
  with_reducible rfl

/-! ## The outlined functions' typed references: their transports are the identity -/

open Cert.TRefLemmas (ofBuf_toBuf)

theorem ob_v81 (p1 p2 p3) (Y : (main_v81 : Ref sig .tc).ty.Contents (Elt Ideal)) :
    (TRef.of (T := ⟨S100000x64, .f32⟩) main_v81 p1 p2 p3).ofBuf Y = Y := rfl
theorem ob_c2v2 (p1 p2 p3) (Y : (main_call2_v2 : Ref sig .tc).ty.Contents (Elt Ideal)) :
    (TRef.of (T := ⟨S100000, .f32⟩) main_call2_v2 p1 p2 p3).ofBuf Y = Y := rfl
theorem ob_c2v5 (p1 p2 p3) (Y : (main_call2_v5 : Ref sig .tc).ty.Contents (Elt Ideal)) :
    (TRef.of (T := ⟨S100000x64, .f32⟩) main_call2_v5 p1 p2 p3).ofBuf Y = Y := rfl
theorem ob_c2v7 (p1 p2 p3) (Y : (main_call2_v7 : Ref sig .tc).ty.Contents (Elt Ideal)) :
    (TRef.of (T := ⟨S100000, .f32⟩) main_call2_v7 p1 p2 p3).ofBuf Y = Y := rfl
theorem tb_c2v2 (p1 p2 p3) (Y : (⟨S100000, .f32⟩ : BufTy).Contents (Elt Ideal)) :
    (TRef.of (T := ⟨S100000, .f32⟩) main_call2_v2 p1 p2 p3).toBuf Y = Y := rfl
theorem tb_c2v5 (p1 p2 p3) (Y : (⟨S100000x64, .f32⟩ : BufTy).Contents (Elt Ideal)) :
    (TRef.of (T := ⟨S100000x64, .f32⟩) main_call2_v5 p1 p2 p3).toBuf Y = Y := rfl
theorem tb_c2v7 (p1 p2 p3) (Y : (⟨S100000, .f32⟩ : BufTy).Contents (Elt Ideal)) :
    (TRef.of (T := ⟨S100000, .f32⟩) main_call2_v7 p1 p2 p3).toBuf Y = Y := rfl
theorem tb_v82 (p1 p2 p3) (Y : (⟨S100000x64, .f32⟩ : BufTy).Contents (Elt Ideal)) :
    (TRef.of (T := ⟨S100000x64, .f32⟩) main_v82 p1 p2 p3).toBuf Y = Y := rfl

/-! ## Inside the log-softmax function -/

theorem v8_M : V8 m c (Proc.devRef .tc main_call2_v2) = lsM (Y2 m c) := by
  unfold V8; seg_list; after_results_simp
  simp only [ofBuf_toBuf]
  rw [tb_c2v2, ob_v81, v7_y2 m c]
  rfl
theorem v8_y : V8 m c (Proc.devRef .tc main_v81) = Y2 m c := by
  unfold V8; seg_list; after_results_simp; exact v7_y2 m c

theorem v9_Z : V9 m c (Proc.devRef .tc main_call2_v5) = lsZ (Y2 m c) := by
  unfold V9; seg_list; after_results_simp
  simp only [ofBuf_toBuf]
  rw [tb_c2v5, ob_v81, ob_c2v2, v8_M m c, v8_y m c]
  rfl

theorem v10_S : V10 m c (Proc.devRef .tc main_call2_v7) = lsS (Y2 m c) := by
  unfold V10; seg_list; after_results_simp
  simp only [ofBuf_toBuf]
  rw [tb_c2v7, ob_c2v5, v9_Z m c]
  rfl
theorem v10_Z : V10 m c (Proc.devRef .tc main_call2_v5) = lsZ (Y2 m c) := by
  unfold V10; seg_list; after_results_simp; exact v9_Z m c

/-! ## At the return -/

/-- THE RESULT ARRAY after the whole line: the reference's value of the six arguments. -/
theorem result : after (ops (F := Ideal)) (launchContents m c) (Proc.devRef .tc main_v82)
    = referenceValue (aX m c) (aE m c) (aW1 m c) (aB1 m c) (aW2 m c) (aB2 m c) := by
  rw [split, ref_eq, logSoftmax_eq]
  seg_list; after_results_simp
  simp only [ofBuf_toBuf]
  rw [tb_v82, ob_c2v5, ob_c2v7, v10_Z m c, v10_S m c]

/-! ## The arguments are kept -/

set_option maxHeartbeats 8000000 in
/-- No operation of the line writes an argument array. -/
theorem kept (b : Ref sig .tc) (hb : b = main_arg0 ∨ b = main_arg1 ∨ b = main_arg2 ∨ b = main_arg3 ∨ b = main_arg4 ∨ b = main_arg5) :
    after (ops (F := Ideal)) (launchContents m c) (Proc.devRef .tc b) = m ((c.tc : Thread nD τ).loc b) := by
  rcases hb with rfl | rfl | rfl | rfl | rfl | rfl <;> (simp only [ops]; after_results_simp)

/-- THE RUN: every weakly fair execution terminates with the result array at the reference's value of the
    arguments and the arguments unchanged. -/
theorem run : θ_run defs (onTc (τ := τ) (main (F := Ideal))) ⟨m, fun _ => 0, ρ⟩ fun r => ∀ c : Dev nD,
      r.2.mem ((c.tc : Thread nD τ).loc main_v82) = referenceValue (aX m c) (aE m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v82).trans (result m c),
      (h c main_arg0).trans (kept m c main_arg0 (Or.inl rfl)),
      (h c main_arg1).trans (kept m c main_arg1 (Or.inr (Or.inl rfl))),
      (h c main_arg2).trans (kept m c main_arg2 (Or.inr (Or.inr (Or.inl rfl)))),
      (h c main_arg3).trans (kept m c main_arg3 (Or.inr (Or.inr (Or.inr (Or.inl rfl))))),
      (h c main_arg4).trans (kept m c main_arg4 (Or.inr (Or.inr (Or.inr (Or.inr (Or.inl rfl)))))),
      (h c main_arg5).trans (kept m c main_arg5 (Or.inr (Or.inr (Or.inr (Or.inr (Or.inr rfl))))))⟩)
    (run_seq scopedRefs_eq scopedSems_eq defs main (fun _ => ops) main_eq (fun _ => ops_sub) m ρ)

end Cert.ReferenceIdeal.GcnChain

end
-- ==== Proof.LibGatherScatter.lean ====
/-
  Reads of a row gather and of a row scatter-add at an index, and a scale factor moved across a scatter-add.

  A gather that picks whole rows of a matrix (or entries of a vector) by one start index per result row reads, at
  result index (e, f), the operand's row "start index e, read signed and clamped into [0, N - 1]" at column f.
  A scatter-add of rows lands update element (e, f) at operand element (r, f') exactly when the scatter index e,
  read signed, is r and f = f'. On the extended reals multiplication by a non-negative real distributes over a
  finite sum, so a non-negative real factor that depends only on the destination row moves across the scatter-add's
  sum. Last, three small facts on words and constants: a non-negative index word is left alone by the
  "add the extent when negative" wrap, the single-precision pattern of one, and the non-negativity of a selected
  reciprocal square root of a maximum with one.
-/
import Idealize.ShloMosaic.PureOps.Ideal
import Idealize.ShloMosaic.PureOps.Ideal.Laws
import Idealize.ShloMosaic.Lib.ValueIdx

noncomputable section

namespace Cert.GatherScatter

open Idealize.ShloMosaic Idealize.ShloMosaic.ValueIdx

/-- The row a gather reads for a start-index word: the word read signed and clamped into [0, N-1]. -/
def clampRow {w : Nat} (N : Nat) (hN : 0 < N) (v : BitVec w) : Fin N := ⟨min v.toInt.toNat (N - 1), by omega⟩

/-! ## A row gather read at an index -/

/-- A gather of rows of a matrix: result row e is the operand's row "start index e" (the result's axis 1 is the
    offset axis, the operand's axis 0 is collapsed and named by the one index component, slices are whole rows). -/
structure RowGather {N E C : Nat} (d : GatherDims ⟨2, ![N, C]⟩ ⟨2, ![E, 1]⟩ ⟨2, ![E, C]⟩) : Prop where
  od : d.offsetDims = [1]
  cd : d.collapsedSliceDims = [0]
  ob : d.operandBatchingDims = []
  sb : d.startIndicesBatchingDims = []
  sm : d.startIndexMap = [0]
  iv : d.indexVectorDim = 1
  ss : d.sliceSizes = ![1, C]

/-- Those dimension numbers as a literal record. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather read at (e, f), for the literal record. On operand axis 0 the start is the index word read signed
    and clamped into [0, N - 1] and the batching and offset coordinates are 0 (the axis is collapsed); on axis 1 the
    start and the batching coordinate are 0 and the offset coordinate is f. -/
theorem rowGatherDims_apply {N E C w : Nat} {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f) = x (ix2 (clampRow N hN (idx (ix2 e (0 : Fin 1)))) f) := by
  unfold Host.gather
  congr 1
  funext a
  refine Fin.ext ?_
  match a with
  | ⟨0, _⟩ =>
    show (rowGatherDims N E C wf).start (ix2 e f) idx 0 + (rowGatherDims N E C wf).batchCoord (ix2 e f) 0
      + (rowGatherDims N E C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hs1 : (rowGatherDims N E C wf).start (ix2 e f) idx 1 = 0 := rfl
    have ho1 : (rowGatherDims N E C wf).offCoord (ix2 e f) 1 = f.val := rfl
    rw [hs1, ho1]
    omega

/-- THE ROW GATHER READ AT (e, f): the operand at row "start index e, read signed and clamped into [0, N - 1]",
    column f. -/
theorem gather_rows_apply {N E C w : Nat} {α : Type} (hN : 0 < N) (d : GatherDims ⟨2, ![N, C]⟩ ⟨2, ![E, 1]⟩ ⟨2, ![E, C]⟩) (hd : RowGather d)
    (x : (⟨2, ![N, C]⟩ : Shape).Idx → α) (idx : IVec ⟨2, ![E, 1]⟩ w) (e : Fin E) (f : Fin C) :
    Host.gather d x idx (ix2 e f) = x (ix2 (clampRow N hN (idx (ix2 e (0 : Fin 1)))) f) := by
  obtain ⟨od, cd, ob, sb, sm, iv, ss, wf⟩ := d
  obtain ⟨h1, h2, h3, h4, h5, h6, h7⟩ := hd
  dsimp only at h1 h2 h3 h4 h5 h6 h7
  subst h1 h2 h3 h4 h5 h6 h7
  exact rowGatherDims_apply hN wf x idx e f

/-! ## A vector gather read at an index -/

/-- A gather of entries of a vector by one start index per result element (no offset axis, the operand's one axis
    collapsed and named by the one index component, slices of one element). -/
structure VecGather {N E : Nat} (d : GatherDims ⟨1, ![N]⟩ ⟨2, ![E, 1]⟩ ⟨1, ![E]⟩) : Prop where
  od : d.offsetDims = []
  cd : d.collapsedSliceDims = [0]
  ob : d.operandBatchingDims = []
  sb : d.startIndicesBatchingDims = []
  sm : d.startIndexMap = [0]
  iv : d.indexVectorDim = 1
  ss : d.sliceSizes = ![1]

/-- Those dimension numbers as a literal record. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather read at e, for the literal record: on the operand's one axis the start is the index word read
    signed and clamped into [0, N - 1], and the batching and offset coordinates are 0. -/
theorem vecGatherDims_apply {N E w : Nat} {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = min (idx (ix2 e (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT e: the operand at entry "start index e, read signed and clamped into [0, N - 1]". -/
theorem gather_vec_apply {N E w : Nat} {α : Type} (hN : 0 < N) (d : GatherDims ⟨1, ![N]⟩ ⟨2, ![E, 1]⟩ ⟨1, ![E]⟩) (hd : VecGather d)
    (x : (⟨1, ![N]⟩ : Shape).Idx → α) (idx : IVec ⟨2, ![E, 1]⟩ w) (e : Fin E) :
    Host.gather d x idx (ix1 e) = x (ix1 (clampRow N hN (idx (ix2 e (0 : Fin 1))))) := by
  obtain ⟨od, cd, ob, sb, sm, iv, ss, wf⟩ := d
  obtain ⟨h1, h2, h3, h4, h5, h6, h7⟩ := hd
  dsimp only at h1 h2 h3 h4 h5 h6 h7
  subst h1 h2 h3 h4 h5 h6 h7
  exact vecGatherDims_apply hN wf x idx e

/-! ## A row scatter's result index -/

/-- A scatter of rows: update (e, f) goes to operand row "scatter index e" at column f (the update's axis 1 is the
    window axis, the operand's axis 0 the inserted one, the one index component names operand axis 0). -/
structure RowScatter {N E C : Nat} (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  iv : d.indexVectorDim = 1

/-- Those dimension numbers as a literal record. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The result index of a row scatter, for the literal record: update (e, f) lands on (r, f') exactly when the
    scatter index e read signed is r and the columns agree. On axis 0 the start is the index word and the window
    coordinate 0; on axis 1 the start is 0 and the window coordinate f. -/
theorem rowScatterDims_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (r : Fin N) (f' : Fin C) :
    (rowScatterDims N E C wf).resultIdx? (ix2 e f) idx = some (ix2 r f') ↔
      ((idx (ix2 e (0 : Fin 1))).toInt = (r.val : Int) ∧ f = f') := by
  have hs0 : (rowScatterDims N E C wf).start (ix2 e f) idx 0 = (idx (ix2 e (0 : Fin 1))).toInt := by
    unfold ScatterDims.start
    rw [dif_pos (show (0 : Fin 2) ∈ (rowScatterDims N E C wf).scatterDimsToOperandDims from
      List.mem_singleton.mpr rfl)]
    have hsi : (rowScatterDims N E C wf).siIdx (ix2 e f)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatterDims N E C wf).window (ix2 e f) 0 = 0 := rfl
  have hs1 : (rowScatterDims N E C wf).start (ix2 e f) idx 1 = 0 := rfl
  have hw1 : (rowScatterDims N E C wf).window (ix2 e f) 1 = f.val := rfl
  constructor
  · intro h
    unfold ScatterDims.resultIdx? at h
    split at h
    · rename_i hc
      have h' := Option.some.inj h
      have e0 : ((rowScatterDims N E C wf).start (ix2 e f) idx 0
          + ((rowScatterDims N E C wf).window (ix2 e f) 0 : Int)).toNat = r.val :=
        congrArg (fun i : (⟨2, ![N, C]⟩ : Shape).Idx => (i 0).val) h'
      have e1 : ((rowScatterDims N E C wf).start (ix2 e f) idx 1
          + ((rowScatterDims N E C wf).window (ix2 e f) 1 : Int)).toNat = f'.val :=
        congrArg (fun i : (⟨2, ![N, C]⟩ : Shape).Idx => (i 1).val) h'
      have c0 : 0 ≤ (rowScatterDims N E C wf).start (ix2 e f) idx 0
          + ((rowScatterDims N E C wf).window (ix2 e f) 0 : Int) := (hc 0).1
      rw [hs0, hw0] at e0 c0
      rw [hs1, hw1] at e1
      exact ⟨by omega, Fin.ext (by omega)⟩
    · exact absurd h (by simp)
  · rintro ⟨hv, rfl⟩
    have hc : ∀ a, 0 ≤ (rowScatterDims N E C wf).start (ix2 e f) idx a + (rowScatterDims N E C wf).window (ix2 e f) a ∧
        (rowScatterDims N E C wf).start (ix2 e f) idx a + (rowScatterDims N E C wf).window (ix2 e f) a
          < (⟨2, ![N, C]⟩ : Shape).size a := by
      intro a
      match a with
      | ⟨0, _⟩ =>
        show 0 ≤ (rowScatterDims N E C wf).start (ix2 e f) idx 0 + ((rowScatterDims N E C wf).window (ix2 e f) 0 : Int) ∧
          (rowScatterDims N E C wf).start (ix2 e f) idx 0 + ((rowScatterDims N E C wf).window (ix2 e f) 0 : Int) < (N : Int)
        rw [hs0, hw0, hv]
        have := r.isLt
        omega
      | ⟨1, _⟩ =>
        show 0 ≤ (rowScatterDims N E C wf).start (ix2 e f) idx 1 + ((rowScatterDims N E C wf).window (ix2 e f) 1 : Int) ∧
          (rowScatterDims N E C wf).start (ix2 e f) idx 1 + ((rowScatterDims N E C wf).window (ix2 e f) 1 : Int) < (C : Int)
        rw [hs1, hw1]
        have := f.isLt
        omega
    unfold ScatterDims.resultIdx?
    rw [dif_pos hc]
    congr 1
    funext a
    refine Fin.ext ?_
    match a with
    | ⟨0, _⟩ =>
      show ((rowScatterDims N E C wf).start (ix2 e f) idx 0
        + ((rowScatterDims N E C wf).window (ix2 e f) 0 : Int)).toNat = r.val
      rw [hs0, hw0, hv]
      omega
    | ⟨1, _⟩ =>
      show ((rowScatterDims N E C wf).start (ix2 e f) idx 1
        + ((rowScatterDims N E C wf).window (ix2 e f) 1 : Int)).toNat = f.val
      rw [hs1, hw1]
      omega

/-- THE RESULT INDEX OF A ROW SCATTER: update (e, f) lands on operand element (r, f') exactly when the scatter
    index e, read signed (not clamped), is r and f = f'. -/
theorem scatter_rows_resultIdx {N E C w : Nat} (d : ScatterDims ⟨2, ![N, C]⟩ ⟨2, ![E, 1]⟩ ⟨2, ![E, C]⟩) (hd : RowScatter d)
    (idx : IVec ⟨2, ![E, 1]⟩ w) (e : Fin E) (f : Fin C) (r : Fin N) (f' : Fin C) :
    d.resultIdx? (ix2 e f) idx = some (ix2 r f') ↔ ((idx (ix2 e (0 : Fin 1))).toInt = (r.val : Int) ∧ f = f') := by
  obtain ⟨uw, iw, sd, iv, wf⟩ := d
  obtain ⟨h1, h2, h3, h4⟩ := hd
  dsimp only at h1 h2 h3 h4
  subst h1 h2 h3 h4
  exact rowScatterDims_resultIdx wf idx e f r f'

/-- On the extended reals a non-negative real factor distributes over a finite sum (the factor is neither negative
    nor infinite, the two cases where distributivity fails). -/
theorem sum_mul_coe_nonneg {ι : Type} (s : Finset ι) (y : ι → EReal) (t : ℝ) (ht : 0 ≤ t) :
    (∑ j ∈ s, y j) * (t : EReal) = ∑ j ∈ s, y j * (t : EReal) := by
  classical
  induction s using Finset.induction_on with
  | empty => simp
  | insert a s ha ih =>
    rw [Finset.sum_insert ha, Finset.sum_insert ha,
      EReal.right_distrib_of_nonneg_of_ne_top (by exact_mod_cast ht) (EReal.coe_ne_top t), ih]

/-! ## A non-negative row factor moved across a row scatter-add -/

/-- THE LAYER EQUATION. A scatter-add of rows into the zero array whose update row e is row "source of e" of H
    scaled by D at the source, multiplied afterwards by D at the destination row, is the scatter-add whose update
    row e is that row of H scaled by the product of D at the source and D at the destination: every update that
    lands on row r has destination r, the factor D r is a non-negative real, and such a factor distributes over the
    scatter-add's sum. -/
theorem scatterAdd_rows_scale {N E C w : Nat} (hN : 0 < N) (d : ScatterDims ⟨2, ![N, C]⟩ ⟨2, ![E, 1]⟩ ⟨2, ![E, C]⟩) (hd : RowScatter d)
    (z : (⟨2, ![N, C]⟩ : Shape).Idx → EReal) (hz : ∀ i, z i = 0)
    (dst srcw dstw : IVec ⟨2, ![E, 1]⟩ w)
    (hwrap : ∀ (e : Fin E) (r : Fin N), (dst (ix2 e (0 : Fin 1))).toInt = (r.val : Int) → clampRow N hN (dstw (ix2 e (0 : Fin 1))) = r)
    (D : (⟨1, ![N]⟩ : Shape).Idx → EReal) (hD : ∀ i, ∃ t : ℝ, 0 ≤ t ∧ D i = (t : EReal))
    (H : (⟨2, ![N, C]⟩ : Shape).Idx → EReal)
    (updK updR : (⟨2, ![E, C]⟩ : Shape).Idx → EReal)
    (hK : ∀ (e : Fin E) (f : Fin C), updK (ix2 e f) = H (ix2 (clampRow N hN (srcw (ix2 e (0 : Fin 1)))) f) * D (ix1 (clampRow N hN (srcw (ix2 e (0 : Fin 1))))))
    (hR : ∀ (e : Fin E) (f : Fin C), updR (ix2 e f) = H (ix2 (clampRow N hN (srcw (ix2 e (0 : Fin 1)))) f) * (D (ix1 (clampRow N hN (srcw (ix2 e (0 : Fin 1))))) * D (ix1 (clampRow N hN (dstw (ix2 e (0 : Fin 1)))))))
    (r : Fin N) (f : Fin C) :
    D (ix1 r) * Ideal.hostScatterAdd d z dst updK (ix2 r f) = Ideal.hostScatterAdd d z dst updR (ix2 r f) := by
  obtain ⟨t, ht, hDt⟩ := hD (ix1 r)
  unfold Ideal.hostScatterAdd
  rw [hz (ix2 r f), zero_add, zero_add, mul_comm (D (ix1 r)), hDt, sum_mul_coe_nonneg _ _ t ht]
  refine Finset.sum_congr rfl ?_
  intro j hj
  obtain ⟨e, f0, rfl⟩ : ∃ (e : Fin E) (f0 : Fin C), j = ix2 e f0 := ⟨j 0, j 1, eq_ix2 j⟩
  obtain ⟨hv, _⟩ := (scatter_rows_resultIdx d hd dst e f0 r f).mp (Finset.mem_filter.mp hj).2
  rw [hK, hR, hwrap e r hv, hDt, mul_assoc]

/-- A word whose signed value is a row number below the extent is not negative, so the wrap
    "add the extent when below zero" returns the word itself, and clamping it gives that row. -/
theorem wrap_clampRow (v : BitVec 32) (r : Fin 100000) (h : v.toInt = (r.val : Int)) :
    clampRow 100000 (by decide) (Scalar.select (IntOp.cmpi .slt v 0#32) (IntOp.addi v 100000#32) v) = r := by
  have hslt : v.slt 0#32 = false := by
    rw [BitVec.slt_eq_decide, h]
    simp
  have hc : IntOp.cmpi .slt v 0#32 = 0#1 := by
    show BitVec.ofBool (v.slt 0#32) = 0#1
    rw [hslt]; rfl
  rw [hc, select_zero]
  refine Fin.ext ?_
  show min v.toInt.toNat (100000 - 1) = r.val
  rw [h, Int.toNat_natCast]
  have := r.isLt
  omega

/-- The single-precision pattern 0x3F800000 is the extended real one. -/
theorem ofBits_one_f32 : Ideal.ofBits .f32 0x3F800000#32 = 1 := by
  simp [Ideal.ofBits, Ideal.ieee, -EReal.coe_mul]; norm_num

/-- A selected reciprocal square root of a maximum with one is a non-negative real: the maximum is at least one, so
    it is infinite (reciprocal square root zero) or a real at least one (reciprocal square root a non-negative
    real); the select's other branch is zero. -/
theorem select_rsqrt_max_nonneg (b : BitVec 1) (y : EReal) :
    ∃ t : ℝ, 0 ≤ t ∧ Scalar.select b (Ideal.rsqrt (max y 1)) 0 = (t : EReal) := by
  unfold Scalar.select
  split
  · have h1 : (1 : EReal) ≤ max y 1 := le_max_right _ _
    induction hm : max y 1 using EReal.rec with
    | bot => rw [hm] at h1; exact absurd h1 (not_le.mpr (EReal.bot_lt_coe 1))
    | top => exact ⟨0, le_refl _, by simp⟩
    | coe r =>
      rw [hm] at h1
      have hr : (1 : ℝ) ≤ r := by exact_mod_cast h1
      refine ⟨(Real.sqrt r)⁻¹, inv_nonneg.mpr (Real.sqrt_nonneg r), ?_⟩
      rw [Ideal.rsqrt_coe, if_neg (by linarith), if_neg (by linarith)]
  · exact ⟨0, le_refl _, by simp⟩

end Cert.GatherScatter

end
-- ==== Proof.Bridge.lean ====
/-
  The bridge between the two programs' values. The kernel program scales every row of a matrix product by the
  normalisation at that row before the edges are followed, and scales every scatter-added sum by the normalisation at
  the destination row afterwards; the reference multiplies every followed edge by the product of the two
  normalisations. The normalisation is a non-negative real at every node, so it distributes over the scatter-add's
  sum, and the two arrangements of a layer give the same array; hence the two programs' results are equal.
-/
import proofs.«109751_j7026566496715_2_alg».proof.Proof.KernelSpec
import proofs.«109751_j7026566496715_2_alg».proof.Proof.RefSpec
import proofs.«109751_j7026566496715_2_alg».proof.Proof.LibGatherScatter
import Idealize.ShloMosaic.Lib.Pipeline.Value
import Idealize.ShloMosaic.Lib.StackMember
import Idealize.ShloMosaic.PureOps.Ideal.Laws

noncomputable section

namespace Cert.GcnBridge

open Idealize.ShloMosaic Idealize.ShloMosaic.ValueIdx
open Cert.KernelIdeal Cert.KernelIdeal.Gen
open Cert.GatherScatter
open Cert.KernelIdeal.GcnSpec Cert.ReferenceIdeal.GcnSpec

/-! ## Small reads at an index -/

/-- A scalar spread over a shape reads the scalar at every index. -/
theorem splat_apply {α : Type} (t : Shape) (h : S_.BroadcastsInDim t ![]) (x : S_.Idx → α) (j : t.Idx) :
    broadcastInDim t ![] h x j = x ix0 :=
  broadcastInDim_apply ![] h x j ix0 (fun a => a.elim0)

/-- The zero constant spread over a shape is zero at every index. -/
theorem splat_zero_apply (t : Shape) (h : S_.BroadcastsInDim t ![]) (j : t.Idx) :
    broadcastInDim t ![] h (constant (F := Ideal) S_ .f32 0x00000000#32) j = 0 := by
  rw [splat_apply]; exact Ideal.ofBits_zero_f32

/-- The host's inverse square root of an elementwise maximum, read at an index. -/
theorem rsqrt_max_apply {s : Shape} (a b : FVec Ideal s .f32) (i : s.Idx) :
    Host.rsqrt (maximumf a b) i = Ideal.rsqrt (max (a i) (b i)) := rfl

/-- A vector of 100000 entries recast as a column reads, at row r, the vector's entry r. -/
theorem col_apply (D : FVec Ideal S100000 .f32) (r : Fin 100000) :
    shapeCast S100000x1 D shapeCasts_S100000_S100000x1 (ix2 r (0 : Fin 1)) = D (ix1 r) :=
  shapeCast_apply D shapeCasts_S100000_S100000x1 (ix2 r (0 : Fin 1)) (ix1 r) (by
    rw [Shape.rowMajor_val_one, Shape.rowMajor_val_two]
    show r.val = r.val * 1 + 0
    omega)

/-! ## The normalisation is a non-negative real -/

/-- The normalisation at a node is a non-negative real: a select between the inverse square root of the larger of the
    degree and one, and zero. -/
theorem dis_nonneg (e : IVec Cert.KernelIdeal.S2x3200000 32) (i : Cert.KernelIdeal.S100000.Idx) :
    ∃ t : ℝ, 0 ≤ t ∧ disV (F := Ideal) e i = (t : EReal) := by
  have h1 : broadcastInDim S100000 ![] bcast_S_S100000 (constant (F := Ideal) S_ .f32 0x3F800000#32) i = 1 := by
    rw [splat_apply]; exact ofBits_one_f32
  have h0 : broadcastInDim S100000 ![] bcast_S_S100000 (id (constant (F := Ideal) S_ .f32 0x00000000#32)) i = 0 :=
    splat_zero_apply _ _ _
  unfold disV
  rw [select_apply, rsqrt_max_apply, h1, h0]
  exact select_rsqrt_max_nonneg _ _

/-! ## A kernel region's result: the matrix product with every row scaled -/

/-- The reference's first product's dimension numbers are those of a plain matrix product. -/
theorem dot16_plain : Cert.ReferenceIdeal.dot_S100000x512_S512x16_S100000x16_1_0_0_1_n_n = DotDims.plain 100000 512 16 := rfl

/-- The reference's second product's dimension numbers are those of a plain matrix product. -/
theorem dot64_plain : Cert.ReferenceIdeal.dot_S100000x16_S16x64_S100000x64_1_0_0_1_n_n = DotDims.plain 100000 16 64 := rfl

/-- The first region's result at (r, f) is the reference's product at (r, f) times the normalisation at r. -/
theorem scaledProd16_eq (X : FVec Ideal Cert.KernelIdeal.S100000x512 .f32) (W : FVec Ideal Cert.KernelIdeal.S512x16 .f32) (D : FVec Ideal Cert.KernelIdeal.S100000 .f32) (r : Fin 100000) (f : Fin 16) :
    scaledProd16 X W (shapeCast Cert.KernelIdeal.S100000x1 D Cert.KernelIdeal.Gen.shapeCasts_S100000_S100000x1) (ValueIdx.ix2 r f)
      = Host.dotGeneral Cert.ReferenceIdeal.dot_S100000x512_S512x16_S100000x16_1_0_0_1_n_n none X W (ValueIdx.ix2 r f) * D (ValueIdx.ix1 r) := by
  rw [dot16_plain, StackMember.dotGeneral_plain_apply, ← col_apply D r]
  rfl

/-- The second region's result at (r, f) is the reference's product at (r, f) times the normalisation at r. -/
theorem scaledProd64_eq (X : FVec Ideal Cert.KernelIdeal.S100000x16 .f32) (W : FVec Ideal Cert.KernelIdeal.S16x64 .f32) (D : FVec Ideal Cert.KernelIdeal.S100000 .f32) (r : Fin 100000) (f : Fin 64) :
    scaledProd64 X W (shapeCast Cert.KernelIdeal.S100000x1 D Cert.KernelIdeal.Gen.shapeCasts_S100000_S100000x1) (ValueIdx.ix2 r f)
      = Host.dotGeneral Cert.ReferenceIdeal.dot_S100000x16_S16x64_S100000x64_1_0_0_1_n_n none X W (ValueIdx.ix2 r f) * D (ValueIdx.ix1 r) := by
  rw [dot64_plain, StackMember.dotGeneral_plain_apply, ← col_apply D r]
  rfl

/-! ## The index columns and the broadcasts of a layer, read at an index -/

/-- A vector over the edges spread to a column reads, at row e, the vector's entry e. -/
theorem edgeCol_apply {α : Type} (h : S3300000.BroadcastsInDim S3300000x1 ![0]) (v : S3300000.Idx → α) (e : Fin 3300000) :
    broadcastInDim S3300000x1 ![0] h v (ix2 e (0 : Fin 1)) = v (ix1 e) :=
  broadcastInDim_apply ![0] h v (ix2 e (0 : Fin 1)) (ix1 e) (fun a => by
    match a with
    | ⟨0, _⟩ =>
      show e.val = if (3300000 : Nat) = 1 then 0 else e.val
      rw [if_neg (by decide)])

/-- The scatter's index column at edge e is the index vector's entry e. -/
theorem rawIx_apply (v : IVec S3300000 32) (e : Fin 3300000) : rawIx v (ix2 e (0 : Fin 1)) = v (ix1 e) := by
  unfold rawIx
  exact edgeCol_apply _ v e

/-- The wrap of an index vector, read at an entry: the entry with the extent added when it is below zero. -/
theorem wrapVec_apply (v : IVec S3300000 32) (j : S3300000.Idx) :
    select (cmpi .slt v (broadcastInDim S3300000 ![] bcast_S_S3300000 (constantI S_ 32 0#32)))
      (addi v (broadcastInDim S3300000 ![] bcast_S_S3300000 (constantI S_ 32 100000#32))) v j
      = Scalar.select (IntOp.cmpi .slt (v j) 0#32) (IntOp.addi (v j) 100000#32) (v j) := by
  have h0 : broadcastInDim S3300000 ![] bcast_S_S3300000 (constantI S_ 32 0#32) j = 0#32 := splat_apply _ _ _ _
  have h1 : broadcastInDim S3300000 ![] bcast_S_S3300000 (constantI S_ 32 100000#32) j = 100000#32 := splat_apply _ _ _ _
  rw [select_apply]
  show Scalar.select (IntOp.cmpi .slt (v j) (broadcastInDim S3300000 ![] bcast_S_S3300000 (constantI S_ 32 0#32) j))
      (IntOp.addi (v j) (broadcastInDim S3300000 ![] bcast_S_S3300000 (constantI S_ 32 100000#32) j)) (v j) = _
  rw [h0, h1]

/-- The gathers' index column at edge e is the wrapped entry e of the index vector. -/
theorem wrapIx_apply (v : IVec S3300000 32) (e : Fin 3300000) :
    wrapIx v (ix2 e (0 : Fin 1))
      = Scalar.select (IntOp.cmpi .slt (v (ix1 e)) 0#32) (IntOp.addi (v (ix1 e)) 100000#32) (v (ix1 e)) := by
  unfold wrapIx
  rw [edgeCol_apply, wrapVec_apply]

/-- An edge whose scatter index, read signed, is the row r has r as the row its wrapped index gathers. -/
theorem wrap_of_raw (v : IVec S3300000 32) (e : Fin 3300000) (r : Fin 100000)
    (h : (rawIx v (ix2 e (0 : Fin 1))).toInt = (r.val : Int)) :
    clampRow 100000 (by decide) (wrapIx v (ix2 e (0 : Fin 1))) = r := by
  rw [rawIx_apply] at h
  rw [wrapIx_apply]
  exact wrap_clampRow _ r h

/-! ## The printed dimension numbers are those of row gathers, vector gathers and row scatters -/

theorem rowGather16K : RowGather Cert.KernelIdeal.gather_S100000x16_S3300000x1_S3300000x16_1_0_n_n_0_1_116 :=
  ⟨rfl, rfl, rfl, rfl, rfl, rfl, rfl⟩
theorem rowGather64K : RowGather Cert.KernelIdeal.gather_S100000x64_S3300000x1_S3300000x64_1_0_n_n_0_1_164 :=
  ⟨rfl, rfl, rfl, rfl, rfl, rfl, rfl⟩
theorem rowScatter16K : RowScatter Cert.KernelIdeal.scatter_S100000x16_S3300000x1_S3300000x16_1_0_0_1 :=
  ⟨rfl, rfl, rfl, rfl⟩
theorem rowScatter64K : RowScatter Cert.KernelIdeal.scatter_S100000x64_S3300000x1_S3300000x64_1_0_0_1 :=
  ⟨rfl, rfl, rfl, rfl⟩
theorem vecGatherR : VecGather Cert.ReferenceIdeal.gather_S100000_S3300000x1_S3300000_n_0_n_n_0_1_1 :=
  ⟨rfl, rfl, rfl, rfl, rfl, rfl, rfl⟩

/-- The two programs' records of a layer's row gather and row scatter are the same dimension numbers. -/
theorem gather16_RK : Cert.ReferenceIdeal.gather_S100000x16_S3300000x1_S3300000x16_1_0_n_n_0_1_116
    = Cert.KernelIdeal.gather_S100000x16_S3300000x1_S3300000x16_1_0_n_n_0_1_116 := rfl
theorem gather64_RK : Cert.ReferenceIdeal.gather_S100000x64_S3300000x1_S3300000x64_1_0_n_n_0_1_164
    = Cert.KernelIdeal.gather_S100000x64_S3300000x1_S3300000x64_1_0_n_n_0_1_164 := rfl
theorem scatter16_RK : Cert.ReferenceIdeal.scatter_S100000x16_S3300000x1_S3300000x16_1_0_0_1
    = Cert.KernelIdeal.scatter_S100000x16_S3300000x1_S3300000x16_1_0_0_1 := rfl
theorem scatter64_RK : Cert.ReferenceIdeal.scatter_S100000x64_S3300000x1_S3300000x64_1_0_0_1
    = Cert.KernelIdeal.scatter_S100000x64_S3300000x1_S3300000x64_1_0_0_1 := rfl

/-- An edge's weight: the normalisation at the row its wrapped source gathers times the one at the row its wrapped
    destination gathers. -/
theorem normR_apply (D : FVec Ideal S100000 .f32) (src dst : IVec S3300000 32) (e : Fin 3300000) :
    normR (F := Ideal) D src dst (ix1 e)
      = D (ix1 (clampRow 100000 (by decide) (wrapIx src (ix2 e (0 : Fin 1)))))
        * D (ix1 (clampRow 100000 (by decide) (wrapIx dst (ix2 e (0 : Fin 1))))) := by
  unfold normR
  rw [mulf_apply, gather_vec_apply (by decide) _ vecGatherR, gather_vec_apply (by decide) _ vecGatherR]

/-- A column spread along the columns of a matrix reads, at (r, f), the column's entry r. -/
theorem colSpread_apply {α : Type} {n C : Nat} (hn : n ≠ 1)
    (h : (⟨2, ![n, 1]⟩ : Shape).BroadcastsInDim ⟨2, ![n, C]⟩ ![0, 1])
    (y : (⟨2, ![n, 1]⟩ : Shape).Idx → α) (r : Fin n) (f : Fin C) :
    broadcastInDim ⟨2, ![n, C]⟩ ![0, 1] h y (ix2 r f) = y (ix2 r (0 : Fin 1)) :=
  broadcastInDim_apply ![0, 1] h y (ix2 r f) (ix2 r (0 : Fin 1)) (fun a => by
    match a with
    | ⟨0, _⟩ =>
      show r.val = if n = 1 then 0 else r.val
      rw [if_neg hn]
    | ⟨1, _⟩ =>
      show (0 : Nat) = if (1 : Nat) = 1 then 0 else f.val
      rw [if_pos rfl])

/-- The host's scatter-add at the extended reals is the ideal scatter-add. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-! ## One layer: the two arrangements give the same array -/

/-- THE FIRST LAYER. With T the rows of H scaled by the normalisation D, the kernel's arrangement (gather T by source,
    scatter-add by destination, scale by D at the destination, add the bias) is the reference's (gather H by source,
    times D at the source times D at the destination, scatter-add by destination, add the bias). -/
theorem layer16_bridge (H T : FVec Ideal Cert.KernelIdeal.S100000x16 .f32) (D : FVec Ideal Cert.KernelIdeal.S100000 .f32)
    (hD : ∀ i, ∃ t : ℝ, 0 ≤ t ∧ D i = (t : EReal))
    (hT : ∀ (r : Fin 100000) (f : Fin 16), T (ValueIdx.ix2 r f) = H (ValueIdx.ix2 r f) * D (ValueIdx.ix1 r))
    (src dst : IVec Cert.KernelIdeal.S3300000 32) (b : FVec Ideal Cert.KernelIdeal.S16 .f32) :
    layerK16 (F := Ideal) T (shapeCast Cert.KernelIdeal.S100000x1 D Cert.KernelIdeal.Gen.shapeCasts_S100000_S100000x1) src dst b = layerR16 (F := Ideal) H D src dst b := by
  funext i
  obtain ⟨r, f, rfl⟩ : ∃ (r : Fin 100000) (f : Fin 16), i = ix2 r f := ⟨i 0, i 1, eq_ix2 i⟩
  unfold layerK16 layerR16
  rw [addf_apply, addf_apply, mulf_apply, colSpread_apply (n := 100000) (by decide), col_apply, scatter16_RK, gather16_RK,
    scatterAdd_ideal, scatterAdd_ideal]
  refine congrArg (fun t => t + bias16 (F := Ideal) b (ix2 r f)) ?_
  exact scatterAdd_rows_scale (by decide) _ rowScatter16K _ (fun i => splat_zero_apply _ _ i) (rawIx dst) (wrapIx src) (wrapIx dst)
    (fun e r h => wrap_of_raw dst e r h) D hD H _ _
    (fun e f => (gather_rows_apply (by decide) _ rowGather16K T (wrapIx src) e f).trans (hT _ f))
    (fun e f => by
      rw [mulf_apply, gather_rows_apply (by decide) _ rowGather16K, colSpread_apply (n := 3300000) (by decide),
        edgeCol_apply, normR_apply])
    r f

/-- THE SECOND LAYER: the same with 64 columns. -/
theorem layer64_bridge (H T : FVec Ideal Cert.KernelIdeal.S100000x64 .f32) (D : FVec Ideal Cert.KernelIdeal.S100000 .f32)
    (hD : ∀ i, ∃ t : ℝ, 0 ≤ t ∧ D i = (t : EReal))
    (hT : ∀ (r : Fin 100000) (f : Fin 64), T (ValueIdx.ix2 r f) = H (ValueIdx.ix2 r f) * D (ValueIdx.ix1 r))
    (src dst : IVec Cert.KernelIdeal.S3300000 32) (b : FVec Ideal Cert.KernelIdeal.S64 .f32) :
    layerK64 (F := Ideal) T (shapeCast Cert.KernelIdeal.S100000x1 D Cert.KernelIdeal.Gen.shapeCasts_S100000_S100000x1) src dst b = layerR64 (F := Ideal) H D src dst b := by
  funext i
  obtain ⟨r, f, rfl⟩ : ∃ (r : Fin 100000) (f : Fin 64), i = ix2 r f := ⟨i 0, i 1, eq_ix2 i⟩
  unfold layerK64 layerR64
  rw [addf_apply, addf_apply, mulf_apply, colSpread_apply (n := 100000) (by decide), col_apply, scatter64_RK, gather64_RK,
    scatterAdd_ideal, scatterAdd_ideal]
  refine congrArg (fun t => t + bias64 (F := Ideal) b (ix2 r f)) ?_
  exact scatterAdd_rows_scale (by decide) _ rowScatter64K _ (fun i => splat_zero_apply _ _ i) (rawIx dst) (wrapIx src) (wrapIx dst)
    (fun e r h => wrap_of_raw dst e r h) D hD H _ _
    (fun e f => (gather_rows_apply (by decide) _ rowGather64K T (wrapIx src) e f).trans (hT _ f))
    (fun e f => by
      rw [mulf_apply, gather_rows_apply (by decide) _ rowGather64K, colSpread_apply (n := 3300000) (by decide),
        edgeCol_apply, normR_apply])
    r f

/-! ## The two programs' results are equal -/

/-- THE VALUE EQUATION: the kernel program's result is the reference's. Layer by layer: a region leaves the product with
    every row scaled by the normalisation, and the layer equation turns the kernel's arrangement of the propagation into
    the reference's; the two outlined functions are applied to equal arrays. -/
theorem value_eq (x : FVec Ideal Cert.KernelIdeal.S100000x512 .f32) (e : IVec Cert.KernelIdeal.S2x3200000 32) (w1 : FVec Ideal Cert.KernelIdeal.S512x16 .f32) (b1 : FVec Ideal Cert.KernelIdeal.S16 .f32) (w2 : FVec Ideal Cert.KernelIdeal.S16x64 .f32) (b2 : FVec Ideal Cert.KernelIdeal.S64 .f32) :
    kernelValue x e w1 b1 w2 b2 = referenceValue x e w1 b1 w2 b2 := by
  have hD := dis_nonneg e
  have l1 : layerK16 (F := Ideal)
        (scaledProd16 x w1 (shapeCast S100000x1 (disV (F := Ideal) e) shapeCasts_S100000_S100000x1))
        (shapeCast S100000x1 (disV (F := Ideal) e) shapeCasts_S100000_S100000x1) (srcV e) (dstV e) b1
      = layerR16 (F := Ideal)
        (Host.dotGeneral Cert.ReferenceIdeal.dot_S100000x512_S512x16_S100000x16_1_0_0_1_n_n none x w1)
        (disV (F := Ideal) e) (srcV e) (dstV e) b1 :=
    layer16_bridge _ _ _ hD (fun r f => scaledProd16_eq x w1 _ r f) _ _ _
  unfold kernelValue referenceValue dcolV
  rw [l1]
  refine congrArg (logSoftmax (F := Ideal)) ?_
  exact layer64_bridge _ _ _ hD (fun r f => scaledProd64_eq _ w2 _ r f) _ _ _

end Cert.GcnBridge

end
-- ==== Proof.lean ====
/-
  A two-layer graph convolution with self loops and symmetric normalisation, followed by a row-wise log-softmax,
  computed two ways over 100000 nodes and 3300000 edges.

  Write D for the normalisation vector: D[i] is the inverse square root of node i's in-degree (self loop included,
  raised to at least 1), or 0 for a node no edge lands on; D[i] is always a non-negative real. For a layer with
  weight matrix W and bias b acting on features X:

    reference:  out[i] = ( Σ over edges e landing on i of  (X·W)[src e] · (D[src e] · D[dst e]) ) + b
    kernel:     out[i] = D[i] · ( Σ over edges e landing on i of  ((X·W)[src e] · D[src e]) ) + b

  where the kernel computes the row-scaled product (X·W)[r] · D[r] inside a pipelined kernel region, 4000 rows per
  grid point. An edge "lands on i" when its destination index, read as a signed integer and NOT wrapped or clamped, is
  i; the gathers read their indices wrapped (a negative index has 100000 added) and clamped into range. For an edge
  landing on i the destination index is i itself, which wrapping and clamping leave alone, so D[dst e] = D[i]; and
  multiplication by a non-negative real distributes over a sum of extended reals. Hence the two layers agree for
  every edge list whatever, and for all extended-real features, weights and biases: the precondition (finite float
  inputs) is not used. The matrix product inside the kernel (narrowed operands, zero accumulator) and the host's are
  the same sum over the contracted axis. The larger-of-zero and log-softmax functions are the same operations on both
  sides and are never opened.

  The three frames: the two kernel programs' are the generated several-region frames; the reference's is its run with
  the result dropped. The idealization ledger is empty.
-/
import proofs.«109751_j7026566496715_2_alg».proof.Defs
import proofs.«109751_j7026566496715_2_alg».proof.Proof.Gen.Kernel
import proofs.«109751_j7026566496715_2_alg».proof.Proof.Gen.Kernel.Skeleton
import proofs.«109751_j7026566496715_2_alg».proof.Proof.Gen.Kernel.Launch
import proofs.«109751_j7026566496715_2_alg».proof.Proof.Gen.Kernel.Points
import proofs.«109751_j7026566496715_2_alg».proof.Proof.Gen.Kernel.Frame
import proofs.«109751_j7026566496715_2_alg».proof.Proof.Gen.KernelIdeal
import proofs.«109751_j7026566496715_2_alg».proof.Proof.Gen.KernelIdeal.Skeleton
import proofs.«109751_j7026566496715_2_alg».proof.Proof.Gen.KernelIdeal.Launch
import proofs.«109751_j7026566496715_2_alg».proof.Proof.Gen.KernelIdeal.Points
import proofs.«109751_j7026566496715_2_alg».proof.Proof.Gen.KernelIdeal.Frame
import proofs.«109751_j7026566496715_2_alg».proof.Proof.Gen.ReferenceIdeal
import proofs.«109751_j7026566496715_2_alg».proof.Proof.Gen.Pre_finite_inputs
import proofs.«109751_j7026566496715_2_alg».proof.Proof.KernelRun
import proofs.«109751_j7026566496715_2_alg».proof.Proof.HostChain
import proofs.«109751_j7026566496715_2_alg».proof.Proof.RefChain
import proofs.«109751_j7026566496715_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The idealized reference runs and leaves its arguments: its run, the result dropped. -/
theorem frame_ri : Cert.frame_ReferenceIdeal := fun m ρ _ =>
  (θ_run Cert.ReferenceIdeal.defs _ _).mono (fun _ h c => (h c).2) (Cert.ReferenceIdeal.GcnChain.run m ρ)

/-- The ideal pass rewrote nothing. -/
theorem preserves : Cert.preserves_Kernel_KernelIdeal := trivial

/-- From memories agreeing on the arguments both idealized programs run, and both result arrays end at the kernel
    program's value of the arguments: the kernel's by its run read boundary by boundary, the reference's by its run
    read segment by segment and the equality of the two values. -/
theorem algebraic : Cert.algebraic_KernelIdeal_ReferenceIdeal := by
  intro m ρ m' ρ' _ hagree
  refine ⟨fun c => Cert.KernelIdeal.GcnSpec.kernelValue (Cert.KernelIdeal.GcnChain.aX m c) (Cert.KernelIdeal.GcnChain.aE m c)
      (Cert.KernelIdeal.GcnChain.aW1 m c) (Cert.KernelIdeal.GcnChain.aB1 m c) (Cert.KernelIdeal.GcnChain.aW2 m c)
      (Cert.KernelIdeal.GcnChain.aB2 m c), ?_, ?_⟩
  · exact (θ_run Cert.KernelIdeal.defs _ _).mono
      (fun r h c => ⟨(h c).1.trans (Cert.KernelIdeal.GcnChain.b9_result m ρ c), (h c).2⟩)
      (Cert.KernelIdeal.GcnRun.run_result (F := Ideal) m ρ)
  · refine (θ_run Cert.ReferenceIdeal.defs _ _).mono (fun _ h c => ⟨(h c).1.trans ?_, (h c).2⟩)
      (Cert.ReferenceIdeal.GcnChain.run m' ρ')
    obtain ⟨h0, h1, h2, h3, h4, h5⟩ := hagree c
    dsimp only [Cert.ReferenceIdeal.GcnChain.aX, Cert.ReferenceIdeal.GcnChain.aE, Cert.ReferenceIdeal.GcnChain.aW1,
      Cert.ReferenceIdeal.GcnChain.aB1, Cert.ReferenceIdeal.GcnChain.aW2, Cert.ReferenceIdeal.GcnChain.aB2]
    rw [h0, h1, h2, h3, h4, h5]
    exact (Cert.GcnBridge.value_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
